-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S1024 .f32) (main_arg8 : FVec F S256x1024 .f32) (main_arg9 : FVec F S256 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S3072 .f32) (main_arg5 : FVec F S3072 .f32) (main_arg6 : FVec F S1024x1024 .f32) (main_arg7 : FVec F S1024 .f32) (main_arg8 : FVec F S256x1024 .f32) (main_arg9 : FVec F S256 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S128x1024 .f32) (main_arg1 : FVec F S128x1024 .f32) (main_arg2 : FVec F S3072x1024 .f32) (main_arg3 : FVec F S3072x1024 .f32) (main_arg4 : FVec F S3072 .f32) (main_arg5 : FVec F S3072 .f32) (main_arg6 : FVec F S1024x1024 .f32) (main_arg7 : FVec F S1024 .f32) (main_arg8 : FVec F S256x1024 .f32) (main_arg9 : FVec F S256 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072x1024 .f32 := Host.absf main_arg3
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg4 main_arg5 main_arg6 main_arg7 main_arg8 main_arg9 main_v13 main_v16
-- ==== Kernel.lean ====
abbrev S128x1024 : Shape := ⟨2, ![128, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S256x1024 : Shape := ⟨2, ![256, 1024]⟩
abbrev S256 : Shape := ⟨1, ![256]⟩
abbrev S1x3072 : Shape := ⟨2, ![1, 3072]⟩
abbrev S512x1024 : Shape := ⟨2, ![512, 1024]⟩
abbrev S1x512 : Shape := ⟨2, ![1, 512]⟩
abbrev S128x512 : Shape := ⟨2, ![128, 512]⟩
abbrev S1x1024 : Shape := ⟨2, ![1, 1024]⟩
abbrev S1x256 : Shape := ⟨2, ![1, 256]⟩
abbrev S128x256 : Shape := ⟨2, ![128, 256]⟩

abbrev nBuf : Space → Nat
  | .hbm => 17
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S256x1024, .f32⟩
  | .hbm, ⟨9, _⟩ => ⟨S256, .f32⟩
  | .hbm, ⟨10, _⟩ => ⟨S1x3072, .f32⟩
  | .hbm, ⟨11, _⟩ => ⟨S1x3072, .f32⟩
  | .hbm, ⟨12, _⟩ => ⟨S128x1024, .f32⟩
  | .hbm, ⟨13, _⟩ => ⟨S128x1024, .f32⟩
  | .hbm, ⟨14, _⟩ => ⟨S1x1024, .f32⟩
  | .hbm, ⟨15, _⟩ => ⟨S1x256, .f32⟩
  | .hbm, ⟨16, _⟩ => ⟨S128x256, .f32⟩
  | .local _ .vmem, ⟨0, _⟩ => ⟨S128x1024, .f32⟩
  | .local _ .vmem, ⟨1, _⟩ => ⟨S128x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x1024, .f32⟩
  | .local _ .vmem, ⟨17, _⟩ => ⟨S1024x1024, .f32⟩
  | .local _ .vmem, ⟨18, _⟩ => ⟨S1x1024, .f32⟩
  | .local _ .vmem, ⟨19, _⟩ => ⟨S256x1024, .f32⟩
  | .local _ .vmem, ⟨20, _⟩ => ⟨S1x256, .f32⟩
  | .local _ .vmem, ⟨21, _⟩ => ⟨S128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v24 : BitVec 1 := Scalar.cmpi .eq arg1 c2_i32
  let v25 : BitVec 32 := Scalar.extui v24
  let c0_i32_14 : BitVec 32 := 0#32
  let v26 : BitVec 1 := Scalar.cmpi .ne v25 c0_i32_14
  v26

def k0_mult1 (i : grid0.Coords) : BitVec 32 :=
  let arg0 : BitVec 32 := BitVec.ofNat 32 (i 0).val
  let c512_i32 : BitVec 32 := 512#32
  let v32 : BitVec 32 := Scalar.muli arg0 c512_i32
  v32
def k0_off1 (i : grid0.Coords) : Fin 2 → Nat :=
  let c0_19 : Index := 0#32
  let arg0 : BitVec 32 := BitVec.ofNat 32 (i 0).val
  let c512_i32 : BitVec 32 := 512#32
  let v32 : BitVec 32 := Scalar.muli arg0 c512_i32
  let v33 : BitVec 32 := v32
  let v34 : Index := Scalar.indexCast v33
  ![0, v34.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S3072_S1x3072 : S3072.ShapeCasts S1x3072
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  shapeCasts_S1024_S1x1024 : S1024.ShapeCasts S1x1024
  shapeCasts_S256_S1x256 : S256.ShapeCasts S1x256
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S128x256_S128x256_0_0 : ∀ a, (![0, 0] : Fin 2 → Nat) a + S128x256.size a ≤ S128x256.size a
  h_S128x256 : 0 < S128x256.numel
  dot_S128x1024_S512x1024_S128x512_1_1_0_0_n_n_wf : DotDims.WF S128x1024 S512x1024 S128x512 [1] [1] [0] [0] [] []
  dot_S128x1024_S1024x1024_S128x1024_1_1_0_0_n_n_wf : DotDims.WF S128x1024 S1024x1024 S128x1024 [1] [1] [0] [0] [] []
  dot_S128x1024_S256x1024_S128x256_1_1_0_0_n_n_wf : DotDims.WF S128x1024 S256x1024 S128x256 [1] [1] [0] [0] [] []
  hrank0 : 0 < grid0.rank
  k0_mult1_dvd : ∀ i : grid0.Coords, ∀ (k0_h3 : k0_cond3 i = 1#1), 512 ∣ (k0_mult1 i).toNat
  k0_off1_inb : ∀ i : grid0.Coords, ∀ (k0_h3 : k0_cond3 i = 1#1), ∀ a, (k0_off1 i) a + S128x512.size a ≤ S128x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S3072x1024.size a
  hwx0_2 : ∀ i : grid0.Coords, EltTy.bits .f32 = 32 ∨ (Rect.block (s := S3072x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S3072x1024.size a
  hwx0_3 : ∀ i : grid0.Coords, EltTy.bits .f32 = 32 ∨ (Rect.block (s := S3072x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x3072.size a
  hwx0_4 : ∀ i : grid0.Coords, EltTy.bits .f32 = 32 ∨ (Rect.block (s := S1x3072) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x3072.size a
  hwx0_5 : ∀ i : grid0.Coords, EltTy.bits .f32 = 32 ∨ (Rect.block (s := S1x3072) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S128x1024.size a
  hwx0_6 : ∀ i : grid0.Coords, EltTy.bits .f32 = 32 ∨ (Rect.block (s := S128x1024) S128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x1024.size a
  hwx0_7 : ∀ i : grid0.Coords, EltTy.bits .f32 = 32 ∨ (Rect.block (s := S128x1024) S128x512.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S128x1024.size a
  hwx1_0 : ∀ i : grid1.Coords, EltTy.bits .f32 = 32 ∨ (Rect.block (s := S128x1024) S128x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x1024.size a
  hwx1_3 : ∀ i : grid1.Coords, EltTy.bits .f32 = 32 ∨ (Rect.block (s := S256x1024) S256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)

variable [Facts₀]

def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S256x1024_S128x256_1_1_0_0_n_n : DotDims S128x1024 S256x1024 S128x256 where
  lhsContracting := [1]
  rhsContracting := [1]
  lhsNonContracting := [0]
  rhsNonContracting := [0]
  lhsBatch := []
  rhsBatch := []
  wf := dot_S128x1024_S256x1024_S128x256_1_1_0_0_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S128x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond3 i == 1#1) | 7 => fun i => !(k0_cond3 i == 1#1) | ⟨_ + 8, h⟩ => absurd h (Nat.not_lt.2 (Nat.le_add_left _ _))

abbrev win1_0 : Pipeline.Window sig grid1 :=
  Pipeline.Window.ofSpec (Memref.whole main_v2_1) S128x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S128x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x1024 : Shape := ⟨2, ![128, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S256x1024 : Shape := ⟨2, ![256, 1024]⟩
abbrev S256 : Shape := ⟨1, ![256]⟩
abbrev S1024x3072 : Shape := ⟨2, ![1024, 3072]⟩
abbrev S128x3072 : Shape := ⟨2, ![128, 3072]⟩
abbrev S1x3072 : Shape := ⟨2, ![1, 3072]⟩
abbrev S_ : Shape := ⟨0, ![]⟩
abbrev S1x1024 : Shape := ⟨2, ![1, 1024]⟩
abbrev S1024x256 : Shape := ⟨2, ![1024, 256]⟩
abbrev S128x256 : Shape := ⟨2, ![128, 256]⟩
abbrev S1x256 : Shape := ⟨2, ![1, 256]⟩

abbrev nBuf : Space → Nat
  | .hbm => 67
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S3072x1024, .f32⟩
  | .hbm, ⟨3, _⟩ => ⟨S3072x1024, .f32⟩
  | .hbm, ⟨4, _⟩ => ⟨S3072, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S256x1024, .f32⟩
  | .hbm, ⟨9, _⟩ => ⟨S256, .f32⟩
  | .hbm, ⟨10, _⟩ => ⟨S1024x3072, .f32⟩
  | .hbm, ⟨11, _⟩ => ⟨S128x3072, .f32⟩
  | .hbm, ⟨12, _⟩ => ⟨S1x3072, .f32⟩
  | .hbm, ⟨13, _⟩ => ⟨S128x3072, .f32⟩
  | .hbm, ⟨14, _⟩ => ⟨S128x3072, .f32⟩
  | .hbm, ⟨15, _⟩ => ⟨S1024x3072, .f32⟩
  | .hbm, ⟨16, _⟩ => ⟨S128x3072, .f32⟩
  | .hbm, ⟨17, _⟩ => ⟨S1x3072, .f32⟩
  | .hbm, ⟨18, _⟩ => ⟨S128x3072, .f32⟩
  | .hbm, ⟨19, _⟩ => ⟨S128x3072, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S128x1024, .f32⟩
  | .hbm, ⟨54, _⟩ => ⟨S1024x1024, .f32⟩
  | .hbm, ⟨55, _⟩ => ⟨S128x1024, .f32⟩
  | .hbm, ⟨56, _⟩ => ⟨S1x1024, .f32⟩
  | .hbm, ⟨57, _⟩ => ⟨S128x1024, .f32⟩
  | .hbm, ⟨58, _⟩ => ⟨S128x1024, .f32⟩
  | .hbm, ⟨59, _⟩ => ⟨S_, .f32⟩
  | .hbm, ⟨60, _⟩ => ⟨S128x1024, .f32⟩
  | .hbm, ⟨61, _⟩ => ⟨S128x1024, .f32⟩
  | .hbm, ⟨62, _⟩ => ⟨S1024x256, .f32⟩
  | .hbm, ⟨63, _⟩ => ⟨S128x256, .f32⟩
  | .hbm, ⟨64, _⟩ => ⟨S1x256, .f32⟩
  | .hbm, ⟨65, _⟩ => ⟨S128x256, .f32⟩
  | .hbm, ⟨66, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S128x3072_0_1 : S1x3072.BroadcastsInDim S128x3072 (![0, 1] : Fin 2 → Fin S128x3072.rank)
  slices_S128x3072_S128x1024_0_0 : S128x3072.Slices ![0, 0] S128x1024
  slices_S128x3072_S128x1024_0_1024 : S128x3072.Slices ![0, 1024] S128x1024
  slices_S128x3072_S128x1024_0_2048 : S128x3072.Slices ![0, 2048] S128x1024
  bcast_S_S128x1024 : S_.BroadcastsInDim S128x1024 (![] : Fin 0 → Fin S128x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  transposes_S256x1024_S1024x256_1_0 : S256x1024.Transposes [1, 0] S1024x256
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  dot_S128x1024_S1024x3072_S128x3072_1_0_0_1_n_n_wf : DotDims.WF S128x1024 S1024x3072 S128x3072 [1] [0] [0] [1] [] []
  dot_S128x1024_S1024x1024_S128x1024_1_0_0_1_n_n_wf : DotDims.WF S128x1024 S1024x1024 S128x1024 [1] [0] [0] [1] [] []
  dot_S128x1024_S1024x256_S128x256_1_0_0_1_n_n_wf : DotDims.WF S128x1024 S1024x256 S128x256 [1] [0] [0] [1] [] []

variable [Facts₀]

def dot_S128x1024_S1024x3072_S128x3072_1_0_0_1_n_n : DotDims S128x1024 S1024x3072 S128x3072 where
  lhsContracting := [1]
  rhsContracting := [0]
  lhsNonContracting := [0]
  rhsNonContracting := [1]
  lhsBatch := []
  rhsBatch := []
  wf := dot_S128x1024_S1024x3072_S128x3072_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf

class Facts : Prop extends Facts₀ where

variable [Facts]
-- ==== Proof.KCellRegion.lean ====
import proofs.«128325_j22093311770918_2_alg».proof.Proof.Gen.Kernel.Launch
import proofs.«128325_j22093311770918_2_alg».proof.Proof.Gen.Kernel.Skeleton
import proofs.«128325_j22093311770918_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The recurrent cell's kernel, one grid point at a time

The grid is 2 × 3: the outer coordinate picks a half of the hidden positions, the inner one a gate. At inner
coordinate 0 the body stores the reset gate of its half into the first scratch buffer, at 1 the update gate into the
second, and at 2 it reads both back, forms the new hidden state of its half and stores it, and it plus the input,
into the two output blocks. The two scratch buffers are therefore carried from one grid point to the next. -/

/-! ## The three conditions, in closed form over the grid -/

/-- The inner grid coordinate is 0 (the reset gate's point). -/
abbrev condR (i : grid0.Coords) : Prop := (Scalar.cmpi .ne (Scalar.extui (Scalar.cmpi .eq (BitVec.ofNat 32 (i 1).val) 0#32)) 0#32) = 1#1
/-- The inner grid coordinate is 1 (the update gate's point). -/
abbrev condZ (i : grid0.Coords) : Prop := (Scalar.cmpi .ne (Scalar.extui (Scalar.cmpi .eq (BitVec.ofNat 32 (i 1).val) 1#32)) 0#32) = 1#1
/-- The inner grid coordinate is 2 (the point that forms the new state). -/
abbrev condN (i : grid0.Coords) : Prop := k0_cond3 i = 1#1

theorem hcondR : ∀ t : Fin cfg0.N, condR (grid0.coords t) ↔ t.val % 3 = 0 :=
  (by decide +kernel : ∀ t : Fin grid0.N, condR (grid0.coords t) ↔ t.val % 3 = 0)
theorem hcondZ : ∀ t : Fin cfg0.N, condZ (grid0.coords t) ↔ t.val % 3 = 1 :=
  (by decide +kernel : ∀ t : Fin grid0.N, condZ (grid0.coords t) ↔ t.val % 3 = 1)
theorem hcondN : ∀ t : Fin cfg0.N, condN (grid0.coords t) ↔ t.val % 3 = 2 :=
  (by decide +kernel : ∀ t : Fin grid0.N, condN (grid0.coords t) ↔ t.val % 3 = 2)

/-! ## Where the windows are idle -/

theorem live0 : ∀ (w : Fin 8), w.val < 6 → ∀ t : Fin cfg0.N, cfg0.idle w (grid0.coords t) = false := by decide +kernel
theorem idle6 : ∀ t : Fin cfg0.N, t.val % 3 ≠ 2 → cfg0.idle 6 (grid0.coords t) = true := by decide +kernel
theorem idle7 : ∀ t : Fin cfg0.N, t.val % 3 ≠ 2 → cfg0.idle 7 (grid0.coords t) = true := by decide +kernel
theorem live6 : ∀ t : Fin cfg0.N, t.val % 3 = 2 → cfg0.idle 6 (grid0.coords t) = false := by decide +kernel
theorem live7 : ∀ t : Fin cfg0.N, t.val % 3 = 2 → cfg0.idle 7 (grid0.coords t) = false := by decide +kernel
theorem noFlush6 : ∀ t : Fin cfg0.N, t.val % 3 ≠ 2 → (cfg0.win 6).flush t = false := by decide +kernel
theorem noFlush7 : ∀ t : Fin cfg0.N, t.val % 3 ≠ 2 → (cfg0.win 7).flush t = false := by decide +kernel

/-! ## The body's rectangles and what it leaves in each buffer -/

abbrev rX : Rect S128x1024 := Rect.unit (s := S128x1024) ![0, 0] S128x1024.size inb_S128x1024_S128x1024_0_0
abbrev rW : Rect S512x1024 := Rect.unit (s := S512x1024) ![0, 0] S512x1024.size inb_S512x1024_S512x1024_0_0
abbrev rB : Rect S1x512 := Rect.unit (s := S1x512) ![0, 0] S1x512.size inb_S1x512_S1x512_0_0
abbrev rO : Rect S128x512 := Rect.unit (s := S128x512) ![0, 0] S128x512.size inb_S128x512_S128x512_0_0
/-- The columns of the point's half, cut out of a whole [128, 1024] block. -/
abbrev rS (i : grid0.Coords) (h : condN i) : Rect S128x1024 := Rect.unit (s := S128x1024) (k0_off1 i) S128x512.size (k0_off1_inb i h)

/-- The reset gate's scratch after its point: the one store, over the six input blocks. -/
def outR (x0 x1 : Vec F S128x1024 .f32) (x2 x3 : Vec F S512x1024 .f32) (x4 x5 : Vec F S1x512 .f32) : Vec F S128x512 .f32 :=
  View.canon [⟨rO, k0_pay3 (View.ld x0 rX) (View.ld x1 rX) (View.ld x2 rW) (View.ld x3 rW) (View.ld x4 rB) (View.ld x5 rB)⟩]
/-- The update gate's scratch after its point. -/
def outZ (x0 x1 : Vec F S128x1024 .f32) (x2 x3 : Vec F S512x1024 .f32) (x4 x5 : Vec F S1x512 .f32) : Vec F S128x512 .f32 :=
  View.canon [⟨rO, k0_pay4 (View.ld x0 rX) (View.ld x1 rX) (View.ld x2 rW) (View.ld x3 rW) (View.ld x4 rB) (View.ld x5 rB)⟩]
/-- The new hidden state's block after the third point, over the input blocks and the two scratch buffers. -/
def outH (i : grid0.Coords) (h : condN i) (x0 x1 : Vec F S128x1024 .f32) (x2 x3 : Vec F S512x1024 .f32) (x4 x5 : Vec F S1x512 .f32)
    (s0 s1 : Vec F S128x512 .f32) : Vec F S128x512 .f32 :=
  View.canon [⟨rO, k0_pay5 (View.ld x0 rX) (View.ld x1 rX) (View.ld x2 rW) (View.ld x3 rW) (View.ld x4 rB) (View.ld x5 rB)
    (View.ld s0 rO) (View.ld s1 rO) (View.ld x1 (rS i h))⟩]
/-- The block of the new state plus the input after the third point. -/
def outS (i : grid0.Coords) (h : condN i) (x0 x1 : Vec F S128x1024 .f32) (x2 x3 : Vec F S512x1024 .f32) (x4 x5 : Vec F S1x512 .f32)
    (s0 s1 : Vec F S128x512 .f32) : Vec F S128x512 .f32 :=
  View.canon [⟨rO, k0_pay6 (View.ld x0 rX) (View.ld x1 rX) (View.ld x2 rW) (View.ld x3 rW) (View.ld x4 rB) (View.ld x5 rB)
    (View.ld s0 rO) (View.ld s1 rO) (View.ld x1 (rS i h)) (View.ld x0 (rS i h))⟩]

/-- One whole-block store covers the block. -/
theorem coverO (p0 : Vec F S128x512 .f32) (y : S128x512.Idx) :
    ∃ pc ∈ ([⟨rO, p0⟩] : List (View.Piece (Elt F) S128x512 .f32)), y ∈ pc.1.set :=
  View.cover_of_tiled [⟨rO, p0⟩] S128x512.size (by rfl) y

/-! ## The body's triple, case by case -/

set_option maxHeartbeats 4000000 in
/-- At a reset-gate point: the inputs and the two output buffers come back as they were, the second scratch too;
    the first scratch, held at anything, ends at the gate. -/
theorem sound_R (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x512 .f32) (harg11 : arg11.IsWhole)
    (hR : condR i) (hZ : ¬condZ i) (hN : ¬condN i)
    (x0 x1 : Vec F S128x1024 .f32) (x2 x3 : Vec F S512x1024 .f32) (x4 x5 : Vec F S1x512 .f32) (y6 y7 s1 : Vec F S128x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ (∃ d, owns (c : Thread nD τ) arg10 fullShare d) ∗ owns (c : Thread nD τ) arg11 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare (outR x0 x1 x2 x3 x4 x5) ∗ owns (c : Thread nD τ) arg11 fullShare s1) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%f11, %hf11, H11⟩, Hk⟩
  subst hf0 hf1 hf2 hf3 hf4 hf5
  sl_exec (disch := first | exact hR | exact hZ | exact hN)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  isplitl [H7]
  · iexists f7; isplitr; · ipureintro; exact hf7
    iexact H7
  isplitl [H10]
  · iexists _; isplitr
    swap; · iexact H10
    ipureintro
    exact View.read_writes_eq_canon _ _ _ (coverO _)
  iexists f11; isplitr; · ipureintro; exact hf11
  iexact H11

set_option maxHeartbeats 4000000 in
/-- At an update-gate point: everything comes back as it was but the second scratch, which ends at the gate. -/
theorem sound_Z (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x512 .f32) (harg11 : arg11.IsWhole)
    (hR : ¬condR i) (hZ : condZ i) (hN : ¬condN i)
    (x0 x1 : Vec F S128x1024 .f32) (x2 x3 : Vec F S512x1024 .f32) (x4 x5 : Vec F S1x512 .f32) (y6 y7 s0 : Vec F S128x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ owns (c : Thread nD τ) arg10 fullShare s0 ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare s0 ∗ owns (c : Thread nD τ) arg11 fullShare (outZ x0 x1 x2 x3 x4 x5)) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, Hk⟩
  subst hf0 hf1 hf2 hf3 hf4 hf5
  sl_exec (disch := first | exact hR | exact hZ | exact hN)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  isplitl [H7]
  · iexists f7; isplitr; · ipureintro; exact hf7
    iexact H7
  isplitl [H10]
  · iexists f10; isplitr; · ipureintro; exact hf10
    iexact H10
  iexists _; isplitr
  swap; · iexact H11
  ipureintro
  exact View.read_writes_eq_canon _ _ _ (coverO _)

set_option maxHeartbeats 4000000 in
/-- At a third point: the inputs and both scratch buffers come back as they were; the two output buffers, held at
    anything, end at the new state's block and at that block plus the input's. -/
theorem sound_N (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x512 .f32) (harg11 : arg11.IsWhole)
    (hR : ¬condR i) (hZ : ¬condZ i) (hN : condN i)
    (x0 x1 : Vec F S128x1024 .f32) (x2 x3 : Vec F S512x1024 .f32) (x4 x5 : Vec F S1x512 .f32) (s0 s1 : Vec F S128x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (outH i hN x0 x1 x2 x3 x4 x5 s0 s1) ∗ owns (c : Thread nD τ) arg9 fullShare (outS i hN x0 x1 x2 x3 x4 x5 s0 s1)
            ∗ owns (c : Thread nD τ) arg10 fullShare s0 ∗ owns (c : Thread nD τ) arg11 fullShare s1) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f10, %hf10, H10⟩, ⟨%f11, %hf11, H11⟩, Hk⟩
  subst hf0 hf1 hf2 hf3 hf4 hf5 hf10 hf11
  sl_exec (disch := first | exact hR | exact hZ | exact hN)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  isplitl [H7]
  · iexists _; isplitr
    swap; · iexact H7
    ipureintro
    exact View.read_writes_eq_canon _ _ _ (coverO _)
  isplitl [H10]
  · iexists f10; isplitr; · ipureintro; rfl
    iexact H10
  iexists f11; isplitr; · ipureintro; rfl
  iexact H11

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the scratch buffers and the output blocks hold, point by point -/

/-- Position `n` of the grid's order, as a point (positions are taken modulo the six points). -/
def pt (n : ℕ) : Fin cfg0.N := ⟨n % 6, by have h : cfg0.N = 6 := N_0; rw [h]; exact Nat.mod_lt _ (by decide)⟩
theorem pt_val (t : Fin cfg0.N) : pt t.val = t := by
  apply Fin.ext; have h : t.val < 6 := lt_of_lt_of_eq t.isLt N_0; show t.val % 6 = t.val; omega

/-- The reset gate of point `t`'s tile. -/
def Rv (c : Dev nD) (t : Fin cfg0.N) : Vec F S128x512 .f32 := outR (iblk0 V c 0 t) (iblk0 V c 1 t) (iblk0 V c 2 t) (iblk0 V c 3 t) (iblk0 V c 4 t) (iblk0 V c 5 t)
/-- The update gate of point `t`'s tile. -/
def Zv (c : Dev nD) (t : Fin cfg0.N) : Vec F S128x512 .f32 := outZ (iblk0 V c 0 t) (iblk0 V c 1 t) (iblk0 V c 2 t) (iblk0 V c 3 t) (iblk0 V c 4 t) (iblk0 V c 5 t)
/-- The new state's block at a third point `t`: from the point's blocks, the reset gate stored two points earlier and the
    update gate stored one point earlier (elsewhere a value nothing reads). -/
def Hv (c : Dev nD) (t : Fin cfg0.N) : Vec F S128x512 .f32 :=
  if h : condN (grid0.coords t) then outH (grid0.coords t) h (iblk0 V c 0 t) (iblk0 V c 1 t) (iblk0 V c 2 t) (iblk0 V c 3 t) (iblk0 V c 4 t) (iblk0 V c 5 t) (Rv V c (pt (t.val - 2))) (Zv V c (pt (t.val - 1)))
  else Rv V c t
/-- The block of the new state plus the input at a third point `t`. -/
def Sv (c : Dev nD) (t : Fin cfg0.N) : Vec F S128x512 .f32 :=
  if h : condN (grid0.coords t) then outS (grid0.coords t) h (iblk0 V c 0 t) (iblk0 V c 1 t) (iblk0 V c 2 t) (iblk0 V c 3 t) (iblk0 V c 4 t) (iblk0 V c 5 t) (Rv V c (pt (t.val - 2))) (Zv V c (pt (t.val - 1)))
  else Rv V c t

/-- What is known of the two scratch buffers before position `n`: past a reset-gate point of the same half the first
    holds that gate, and before a third point the second holds the update gate stored just before. -/
def ScrInv (c : Dev nD) (n : ℕ) (d0 d1 : Vec F S128x512 .f32) : Prop :=
  (n % 3 ≠ 0 → d0 = Rv V c (pt (n - n % 3))) ∧ (n % 3 = 2 → d1 = Zv V c (pt (n - 1)))

/-- The two scratch operands, whole scoped buffers of the kernel's own. -/
abbrev scR : Memref sig .tc .vmem S128x512 .f32 := Memref.whole cc0_scratch0
abbrev scZ : Memref sig .tc .vmem S128x512 .f32 := Memref.whole cc0_scratch1

/-- The other region's staging buffers, at some contents each: scoped buffers this region never touches. -/
def restH (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class's invariant with the two scratch operands as memrefs owned at some contents. -/
theorem PhiA0_eq (c : Dev nD) :
    (Pipeline.ΦA spec0 c : sProp 𝕄)
      = iprop(((∃ d, owns (c : Thread nD τ) scR fullShare d) ∗ (∃ d, owns (c : Thread nD τ) scZ fullShare d) ∗ restH c) ∗ (∃ r, prngReg c r)) := by
  unfold Pipeline.ΦA restH; rw [scopedRest0_eq]; simp only [scR, scZ, owns_whole]; try rfl

/-- The region's invariant before position `n`: the two scratch buffers at contents of which `ScrInv` holds, the
    other scoped buffers at anything, the generator register at some state. -/
def Phi0 (c : Dev nD) (n : ℕ) : sProp 𝕄 :=
  iprop(((∃ d0 d1, ⌜ScrInv V c n d0 d1⌝ ∗ owns (c : Thread nD τ) scR fullShare d0 ∗ owns (c : Thread nD τ) scZ fullShare d1) ∗ restH c) ∗ (∃ r, prngReg c r))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => Hv V c t
    | ⟨7, _⟩ => Sv V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = Hv V c t := by dsimp only [dat0]
theorem after0_7 (c : Dev nD) (t : Fin cfg0.N) : (dat0 V c).after 7 t = Sv V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point. The inputs' buffers hold their blocks; the position's residue modulo three says which of
    the three cases the point is in; the invariant hands the body the two scratch buffers and takes them back with
    what the case stored; an output block is idle, and handed back untouched, except at a third point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  rw [show (dat0 V c).leavesExact 0 t = owns (c : Thread nD τ) (st0_0 t) fullShare ((dat0 V c).after 0 t) from by
    unfold Dat.leavesExact; rw [live0 0 (by decide) t], after0_0]
  rw [show (dat0 V c).leavesExact 1 t = owns (c : Thread nD τ) (st0_1 t) fullShare ((dat0 V c).after 1 t) from by
    unfold Dat.leavesExact; rw [live0 1 (by decide) t], after0_1]
  rw [show (dat0 V c).leavesExact 2 t = owns (c : Thread nD τ) (st0_2 t) fullShare ((dat0 V c).after 2 t) from by
    unfold Dat.leavesExact; rw [live0 2 (by decide) t], after0_2]
  rw [show (dat0 V c).leavesExact 3 t = owns (c : Thread nD τ) (st0_3 t) fullShare ((dat0 V c).after 3 t) from by
    unfold Dat.leavesExact; rw [live0 3 (by decide) t], after0_3]
  rw [show (dat0 V c).leavesExact 4 t = owns (c : Thread nD τ) (st0_4 t) fullShare ((dat0 V c).after 4 t) from by
    unfold Dat.leavesExact; rw [live0 4 (by decide) t], after0_4]
  rw [show (dat0 V c).leavesExact 5 t = owns (c : Thread nD τ) (st0_5 t) fullShare ((dat0 V c).after 5 t) from by
    unfold Dat.leavesExact; rw [live0 5 (by decide) t], after0_5]
  have hN6 : t.val < 6 := lt_of_lt_of_eq t.isLt N_0
  unfold Phi0
  by_cases h0 : t.val % 3 = 0
  · rw [Dat.leavesExact_idle (dat0 V c) 6 t (idle6 t (by omega)) (noFlush6 t (by omega)),
      Dat.leavesExact_idle (dat0 V c) 7 t (idle7 t (by omega)) (noFlush7 t (by omega))]
    iintro ⟨⟨⟨⟨%d0, %d1, %hinv, HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (sound_R c Set.univ (grid0.coords t) _ _ _ _ _ _ _ _ _ _ _ _ _ _ _ _ _ _ _ _ ((hcondR t).mpr h0)
      (fun h => by have := (hcondZ t).mp h; omega) (fun h => by have := (hcondN t).mp h; omega) (iblk0 V c 0 t) (iblk0 V c 1 t) (iblk0 V c 2 t) (iblk0 V c 3 t) (iblk0 V c 4 t) (iblk0 V c 5 t) _ _ d1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists d0; iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · iexists (outR (iblk0 V c 0 t) (iblk0 V c 1 t) (iblk0 V c 2 t) (iblk0 V c 3 t) (iblk0 V c 4 t) (iblk0 V c 5 t)), d1; isplitr
          · ipureintro
            refine ⟨fun _ => ?_, fun h => by omega⟩
            have e : t.val + 1 - (t.val + 1) % 3 = t.val := by omega
            rw [e, pt_val]; rfl
          isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h1 : t.val % 3 = 1
  · rw [Dat.leavesExact_idle (dat0 V c) 6 t (idle6 t (by omega)) (noFlush6 t (by omega)),
      Dat.leavesExact_idle (dat0 V c) 7 t (idle7 t (by omega)) (noFlush7 t (by omega))]
    iintro ⟨⟨⟨⟨%d0, %d1, %hinv, HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (sound_Z c Set.univ (grid0.coords t) _ _ _ _ _ _ _ _ _ _ _ _ _ _ _ _ _ _ _ _ (fun h => by have := (hcondR t).mp h; omega)
      ((hcondZ t).mpr h1) (fun h => by have := (hcondN t).mp h; omega) (iblk0 V c 0 t) (iblk0 V c 1 t) (iblk0 V c 2 t) (iblk0 V c 3 t) (iblk0 V c 4 t) (iblk0 V c 5 t) _ _ d0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists d1; iexact HS1
    iintro ⟨H0, H1, H2, H3, H4, H5, H6, H7, HS0, HS1⟩
    isplitl [HS0 HS1 Hrest Hg]
    · isplitl [HS0 HS1 Hrest]
      · isplitl [HS0 HS1]
        · iexists d0, (outZ (iblk0 V c 0 t) (iblk0 V c 1 t) (iblk0 V c 2 t) (iblk0 V c 3 t) (iblk0 V c 4 t) (iblk0 V c 5 t)); isplitr
          · ipureintro
            refine ⟨fun _ => ?_, fun _ => ?_⟩
            · have e : t.val + 1 - (t.val + 1) % 3 = t.val - t.val % 3 := by omega
              rw [e]; exact hinv.1 (by omega)
            · rw [Nat.add_sub_cancel, pt_val]; rfl
          isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have h2 : t.val % 3 = 2 := by omega
    rw [show (dat0 V c).leavesExact 6 t = owns (c : Thread nD τ) (st0_6 t) fullShare ((dat0 V c).after 6 t) from by
      unfold Dat.leavesExact; rw [live6 t h2], after0_6]
    rw [show (dat0 V c).leavesExact 7 t = owns (c : Thread nD τ) (st0_7 t) fullShare ((dat0 V c).after 7 t) from by
      unfold Dat.leavesExact; rw [live7 t h2], after0_7]
    unfold Hv Sv
    rw [dif_pos ((hcondN t).mpr h2), dif_pos ((hcondN t).mpr h2)]
    iintro ⟨⟨⟨⟨%d0, %d1, %hinv, HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hd0 : d0 = Rv V c (pt (t.val - 2)) := by
      have := hinv.1 (by omega); rwa [show t.val - t.val % 3 = t.val - 2 by omega] at this
    have hd1 : d1 = Zv V c (pt (t.val - 1)) := hinv.2 h2
    subst hd0 hd1
    iapply (sound_N c Set.univ (grid0.coords t) _ _ _ _ _ _ _ _ _ _ _ _ _ _ _ _ _ _ _ _ (fun h => by have := (hcondR t).mp h; omega)
      (fun h => by have := (hcondZ t).mp h; omega) ((hcondN t).mpr h2) (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · iexists (Rv V c (pt (t.val - 2))), (Zv V c (pt (t.val - 1))); isplitr
          · ipureintro
            exact ⟨fun h => absurd (by omega : (t.val + 1) % 3 = 0) h, fun h => by omega⟩
          isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point: nothing is known of the scratch. -/
theorem hin0 (c : Dev nD) : Pipeline.ΦA spec0 c ⊢ (dat0 V c).Φ 0 := by
  rw [show (dat0 V c).Φ 0 = Phi0 V c 0 from rfl, PhiA0_eq]; unfold Phi0
  iintro ⟨⟨⟨%d0, H0⟩, ⟨%d1, H1⟩, Hrest⟩, Hg⟩
  isplitl [H0 H1 Hrest]
  · isplitl [H0 H1]
    · iexists d0, d1; isplitr
      · ipureintro; exact ⟨fun h => absurd (Nat.zero_mod 3) h, fun h => by omega⟩
      isplitl [H0]; · iexact H0
      iexact H1
    iexact Hrest
  iexact Hg

/-- At any position the invariant gives the class's back: what the scratch buffers hold is forgotten. -/
theorem Phi0_out (c : Dev nD) (n : ℕ) : Phi0 V c n ⊢ Pipeline.ΦA spec0 c := by
  rw [PhiA0_eq]; unfold Phi0
  iintro ⟨⟨⟨%d0, %d1, -, H0, H1⟩, Hrest⟩, Hg⟩
  isplitl [H0 H1 Hrest]
  · isplitl [H0]; · iexists d0; iexact H0
    isplitl [H1]; · iexists d1; iexact H1
    iexact Hrest
  iexact Hg

theorem hout0 (c : Dev nD) : (dat0 V c).Φ (Fin.last cfg0.N) ⊢ Pipeline.ΦA spec0 c :=
  Phi0_out V c _

end Region

end Cert.Kernel.Hand

end
-- ==== Proof.KHeadRegion.lean ====
/- The frame data of the second kernel region of @main (custom_call 1, `cc1__mlp_kernel`: one grid point, six
   windows — five inputs and one output, every block the whole array), at a PARAMETER `V`: the TensorCore's buffer
   contents when the region is entered. Each window's block at a point (`iblk1`), the output's buffer after the body
   (`out1_5`), the body's triple (`sound_kernel1`), the pipeline's proof data (`dat1`), the body obligation
   (`body_obligation1`), and the closed forms: the output buffer after the body is the payload of the five inputs
   (`out1_5_eq`) and the output array after the region is that payload of the five input arrays (`final1_5`).
   Everything is generic in the float instance `F`. -/
import proofs.«128325_j22093311770918_2_alg».proof.Proof.Gen.Kernel.Launch
import proofs.«128325_j22093311770918_2_alg».proof.Proof.Gen.Kernel.Skeleton
import proofs.«128325_j22093311770918_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of large extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an unfetched point has not
    moved the index; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): an unfetched point has not
    moved the index; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): an unfetched point has not
    moved the index; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): an unfetched point has not
    moved the index; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): an unfetched point has not
    moved the index; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer's whole-shape rectangle at zero offsets -/

abbrev r1_0 : Rect S128x1024 := Rect.unit (s := S128x1024) ![0, 0] S128x1024.size inb_S128x1024_S128x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0
abbrev r1_3 : Rect S256x1024 := Rect.unit (s := S256x1024) ![0, 0] S256x1024.size inb_S256x1024_S256x1024_0_0
abbrev r1_4 : Rect S1x256 := Rect.unit (s := S1x256) ![0, 0] S1x256.size inb_S1x256_S1x256_0_0
abbrev r1_5 : Rect S128x256 := Rect.unit (s := S128x256) ![0, 0] S128x256.size inb_S128x256_S128x256_0_0

/-! ## What the body leaves in the output window's buffer -/

/-- Window 5's staging buffer after the body, from the input windows' blocks: its one store as a piece, the payload
    the skeleton's over the five loads. -/
def out1_5 (x0 : Vec F S128x1024 .f32) (x1 : Vec F S1024x1024 .f32) (x2 : Vec F S1x1024 .f32) (x3 : Vec F S256x1024 .f32) (x4 : Vec F S1x256 .f32) : Vec F S128x256 .f32 :=
  View.canon [⟨r1_5, k1_pay1 (View.ld x0 r1_0) (View.ld x1 r1_1) (View.ld x2 r1_2) (View.ld x3 r1_3) (View.ld x4 r1_4)⟩]

/-- The one store tiles the buffer (one block, the whole shape), so it covers it. -/
theorem cover1_5 (p0 : Vec F S128x256 .f32) (y : S128x256.Idx) :
    ∃ pc ∈ ([⟨r1_5, p0⟩] : List (View.Piece (Elt F) S128x256 .f32)), y ∈ pc.1.set :=
  View.cover_of_tiled [⟨r1_5, p0⟩] S128x256.size (by rfl) y

/-! ## The body's triple -/

set_option maxHeartbeats 1000000 in
/-- The kernel body on whole staging memrefs, the inputs' at read contents `xW` and the output's at anything (the body
    loads the output buffer before it stores into it; the loaded value is not used), runs to the continuation holding
    the inputs' as they were and the output's at `out1_5` of the inputs'. -/
theorem sound_kernel1 (c : Dev nD) (E : Set ℕ) (i : grid1.Coords) (arg1 : Memref sig .tc .vmem S128x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S128x256 .f32) (harg6 : arg6.IsWhole)
    (x0 : Vec F S128x1024 .f32) (x1 : Vec F S1024x1024 .f32) (x2 : Vec F S1x1024 .f32) (x3 : Vec F S256x1024 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Closed forms: the output buffer is the payload; the output array after the region -/

/-- The zero offsets, as the rectangles spell them. -/
theorem hz1 : (![0, 0] : Fin 2 → Nat) = fun _ => 0 := funext fun a => by fin_cases a <;> rfl

/-- One whole-shape store leaves its payload, and a load through a whole-shape rectangle at zero offsets reads the
    contents: the output window's buffer after the body is the payload of the five input buffers. -/
theorem out1_5_eq (x0 : Vec F S128x1024 .f32) (x1 : Vec F S1024x1024 .f32) (x2 : Vec F S1x1024 .f32) (x3 : Vec F S256x1024 .f32) (x4 : Vec F S1x256 .f32) :
    out1_5 x0 x1 x2 x3 x4 = k1_pay1 x0 x1 x2 x3 x4 := by
  unfold out1_5
  rw [View.canon_unit_zero hz1]
  simp only [View.ld_unit_zero (S := S128x1024) hz1, View.ld_unit_zero (S := S1024x1024) hz1, View.ld_unit_zero (S := S1x1024) hz1,
    View.ld_unit_zero (S := S256x1024) hz1, View.ld_unit_zero (S := S1x256) hz1]

/-- Every window's block index is zero on both axes at every point (the index maps are constant), decided over the grid. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- An element of a window's block sits in the array at its own index: the block is the whole array (a block's coordinate
    is the block index times the block's size plus the coordinate inside the block, and the index is zero). -/
theorem blk_emb1_0 (t : Fin cfg1.N) (j : S128x1024.Idx) : ((cfg1.win 0).blk t).view.emb j = j := by
  have e := idx1 t
  funext a; apply Fin.ext
  match a with
  | ⟨0, _⟩ => show win1_0.index t (0 : Fin 2) * 128 + 1 * (j 0).val = (j 0).val; omega
  | ⟨1, _⟩ => show win1_0.index t (1 : Fin 2) * 1024 + 1 * (j 1).val = (j 1).val; omega
theorem blk_emb1_1 (t : Fin cfg1.N) (j : S1024x1024.Idx) : ((cfg1.win 1).blk t).view.emb j = j := by
  have e := idx1 t
  funext a; apply Fin.ext
  match a with
  | ⟨0, _⟩ => show win1_1.index t (0 : Fin 2) * 1024 + 1 * (j 0).val = (j 0).val; omega
  | ⟨1, _⟩ => show win1_1.index t (1 : Fin 2) * 1024 + 1 * (j 1).val = (j 1).val; omega
theorem blk_emb1_2 (t : Fin cfg1.N) (j : S1x1024.Idx) : ((cfg1.win 2).blk t).view.emb j = j := by
  have e := idx1 t
  funext a; apply Fin.ext
  match a with
  | ⟨0, _⟩ => show win1_2.index t (0 : Fin 2) * 1 + 1 * (j 0).val = (j 0).val; omega
  | ⟨1, _⟩ => show win1_2.index t (1 : Fin 2) * 1024 + 1 * (j 1).val = (j 1).val; omega
theorem blk_emb1_3 (t : Fin cfg1.N) (j : S256x1024.Idx) : ((cfg1.win 3).blk t).view.emb j = j := by
  have e := idx1 t
  funext a; apply Fin.ext
  match a with
  | ⟨0, _⟩ => show win1_3.index t (0 : Fin 2) * 256 + 1 * (j 0).val = (j 0).val; omega
  | ⟨1, _⟩ => show win1_3.index t (1 : Fin 2) * 1024 + 1 * (j 1).val = (j 1).val; omega
theorem blk_emb1_4 (t : Fin cfg1.N) (j : S1x256.Idx) : ((cfg1.win 4).blk t).view.emb j = j := by
  have e := idx1 t
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega
theorem blk_emb1_5 (t : Fin cfg1.N) (j : S128x256.Idx) : ((cfg1.win 5).blk t).view.emb j = j := by
  have e := idx1 t
  funext a; apply Fin.ext
  match a with
  | ⟨0, _⟩ => show win1_5.index t (0 : Fin 2) * 128 + 1 * (j 0).val = (j 0).val; omega
  | ⟨1, _⟩ => show win1_5.index t (1 : Fin 2) * 256 + 1 * (j 1).val = (j 1).val; omega

/-- So each input window's block at any point is its whole array as the region finds it. -/
theorem iblk1_0 (c : Dev nD) (t : Fin cfg1.N) : iblk1 V c 0 t = V c main_v2_1 := by
  funext j
  show V c main_v2_1 (((cfg1.win 0).blk t).view.emb j) = V c main_v2_1 j
  exact congrArg (V c main_v2_1) (blk_emb1_0 t j)
theorem iblk1_1 (c : Dev nD) (t : Fin cfg1.N) : iblk1 V c 1 t = V c main_arg6 := by
  funext j
  show V c main_arg6 (((cfg1.win 1).blk t).view.emb j) = V c main_arg6 j
  exact congrArg (V c main_arg6) (blk_emb1_1 t j)
theorem iblk1_2 (c : Dev nD) (t : Fin cfg1.N) : iblk1 V c 2 t = V c main_v3 := by
  funext j
  show V c main_v3 (((cfg1.win 2).blk t).view.emb j) = V c main_v3 j
  exact congrArg (V c main_v3) (blk_emb1_2 t j)
theorem iblk1_3 (c : Dev nD) (t : Fin cfg1.N) : iblk1 V c 3 t = V c main_arg8 := by
  funext j
  show V c main_arg8 (((cfg1.win 3).blk t).view.emb j) = V c main_arg8 j
  exact congrArg (V c main_arg8) (blk_emb1_3 t j)
theorem iblk1_4 (c : Dev nD) (t : Fin cfg1.N) : iblk1 V c 4 t = V c main_v4 := by
  funext j
  show V c main_v4 (((cfg1.win 4).blk t).view.emb j) = V c main_v4 j
  exact congrArg (V c main_v4) (blk_emb1_4 t j)

/-- WHAT A POINT WRITES BACK is its block — the whole array — of `out1_5` of the five input arrays as the region finds them. -/
theorem flushed1_5_eq (c : Dev nD) (t : Fin cfg1.N) :
    (dat1 V c).flushed 5 t = ((cfg1.win 5).blk t).view.read (Elt F) (out1_5 (V c main_v2_1) (V c main_arg6) (V c main_v3) (V c main_arg8) (V c main_v4)) := by
  show (cfg1.win 5).cut (grid1.coords t) ((dat1 V c).after 5 t) = _
  rw [after1_5, iblk1_0, iblk1_1, iblk1_2, iblk1_3, iblk1_4]
  funext j
  show out1_5 (V c main_v2_1) (V c main_arg6) (V c main_v3) (V c main_arg8) (V c main_v4) j
    = out1_5 (V c main_v2_1) (V c main_arg6) (V c main_v3) (V c main_arg8) (V c main_v4) (((cfg1.win 5).blk t).view.emb j)
  exact (congrArg _ (blk_emb1_5 t j)).symm

/-- An index of the output array is in point `t`'s block iff each coordinate is in the block's range on its axis. -/
theorem mem_blk1_5 (t : Fin cfg1.N) (i : S128x256.Idx) :
    i ∈ ((cfg1.win 5).blk t).view.set ↔ ∀ a : Fin 2, win1_5.index t a * S128x256.size a ≤ (i a).val ∧ (i a).val < win1_5.index t a * S128x256.size a + S128x256.size a := by
  show i ∈ ((View.whole main_v5).slice (win1_5.rect t)).set ↔ _
  rw [View.set_slice_whole, Rect.mem_set_unit]
  exact Iff.rfl

/-- The one point's block covers the output array. -/
theorem cover_arr1_5 (i : S128x256.Idx) : ∃ t : Fin cfg1.N, (cfg1.win 5).flush t = true ∧ i ∈ ((cfg1.win 5).blk t).view.set := by
  refine ⟨t1_0, flush1_5 t1_0, ?_⟩
  rw [mem_blk1_5]
  have e := idx1 t1_0
  have hi0 : (i 0).val < 128 := (i 0).isLt
  have hi1 : (i 1).val < 256 := (i 1).isLt
  intro a
  match a with
  | ⟨0, _⟩ => show win1_5.index t1_0 (0 : Fin 2) * 128 ≤ (i 0).val ∧ (i 0).val < win1_5.index t1_0 (0 : Fin 2) * 128 + 128; omega
  | ⟨1, _⟩ => show win1_5.index t1_0 (1 : Fin 2) * 256 ≤ (i 1).val ∧ (i 1).val < win1_5.index t1_0 (1 : Fin 2) * 256 + 256; omega

/-- THE OUTPUT ARRAY after the region: `out1_5` of the five input arrays as the region finds them (one grid point,
    every block the whole array). -/
theorem final1_5 (c : Dev nD) :
    (dat1 V c).arrAt 5 cfg1.N = out1_5 (V c main_v2_1) (V c main_arg6) (V c main_v3) (V c main_arg8) (V c main_v4) :=
  (dat1 V c).arrAt_eq_of_cover 5 _ (fun t _ => flushed1_5_eq V c t) cover_arr1_5

end Region1

end Cert.Kernel.Hand

end
-- ==== Proof.KRunMain.lean ====
import proofs.«128325_j22093311770918_2_alg».proof.Proof.KCellRegion
import proofs.«128325_j22093311770918_2_alg».proof.Proof.KHeadRegion
import proofs.«128325_j22093311770918_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run

@main is two short stretches of host reshapes and the two kernel regions. The contents of the TensorCore's unscoped
buffers are followed from the launch memory through the four items; every execution terminates with those buffers at
the last of these contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first two reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the next two reshapes (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 3).trans (((dat1 (V3 m ρ) c).arrAt_in 3 rfl _).trans (A_eq1 (V3 m ρ) c 3))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The two results, read back through the items -/

/-- The second result is what the first region's write-backs leave in its first output array: no later item writes it. -/
theorem W4_main_v2_0 (c : Dev nD) : W4 m ρ c (Proc.devRef .tc main_v2_0) = (dat0 (V1 m ρ) c).arrAt 6 cfg0.N :=
  calc W4 m ρ c (Proc.devRef .tc main_v2_0)
    _ = W3 m ρ c (Proc.devRef .tc main_v2_0) := W4_of_ne m ρ c main_v2_0 (by decide)
    _ = W2 m ρ c (Proc.devRef .tc main_v2_0) := StableHlo.after_of_writes_sub hostOps1 _ hostOps1_writes (by decide)
    _ = (dat0 (V1 m ρ) c).arrAt 6 cfg0.N := W2_arr m ρ c 6
/-- The first result is what the second region's one write-back leaves. -/
theorem W4_main_v5 (c : Dev nD) : W4 m ρ c (Proc.devRef .tc main_v5) = (dat1 (V3 m ρ) c).arrAt 5 cfg1.N := W4_arr m ρ c 5
/-- What the second region reads as its first operand is what the first region left in its second output array. -/
theorem V3_main_v2_1 (c : Dev nD) : V3 m ρ c main_v2_1 = (dat0 (V1 m ρ) c).arrAt 7 cfg0.N :=
  (StableHlo.after_of_writes_sub hostOps1 _ hostOps1_writes (by decide)).trans (W2_arr m ρ c 7)
theorem V3_of_W1 (c : Dev nD) (b : Ref sig .tc) (h1 : b ∉ hostOps1_W) (h0 : ∀ w, Pipeline.arrRef spec0 w ≠ b) : V3 m ρ c b = W1 m ρ c (Proc.devRef .tc b) :=
  (StableHlo.after_of_writes_sub hostOps1 _ hostOps1_writes h1).trans (W2_of_ne m ρ c b h0)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in every
    final state each unscoped buffer of the TensorCore holds the last of the contents followed above. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun s h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_main m ρ)

end Cert.Kernel.Hand

end
-- ==== Proof.CellRegion.lean ====
import proofs.«128325_j22093311770918_2_alg».proof.Proof.Gen.KernelIdeal.Launch
import proofs.«128325_j22093311770918_2_alg».proof.Proof.Gen.KernelIdeal.Skeleton
import proofs.«128325_j22093311770918_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The recurrent cell's kernel, one grid point at a time

The grid is 2 × 3: the outer coordinate picks a half of the hidden positions, the inner one a gate. At inner
coordinate 0 the body stores the reset gate of its half into the first scratch buffer, at 1 the update gate into the
second, and at 2 it reads both back, forms the new hidden state of its half and stores it, and it plus the input,
into the two output blocks. The two scratch buffers are therefore carried from one grid point to the next. -/

/-! ## The three conditions, in closed form over the grid -/

/-- The inner grid coordinate is 0 (the reset gate's point). -/
abbrev condR (i : grid0.Coords) : Prop := (Scalar.cmpi .ne (Scalar.extui (Scalar.cmpi .eq (BitVec.ofNat 32 (i 1).val) 0#32)) 0#32) = 1#1
/-- The inner grid coordinate is 1 (the update gate's point). -/
abbrev condZ (i : grid0.Coords) : Prop := (Scalar.cmpi .ne (Scalar.extui (Scalar.cmpi .eq (BitVec.ofNat 32 (i 1).val) 1#32)) 0#32) = 1#1
/-- The inner grid coordinate is 2 (the point that forms the new state). -/
abbrev condN (i : grid0.Coords) : Prop := k0_cond3 i = 1#1

theorem hcondR : ∀ t : Fin cfg0.N, condR (grid0.coords t) ↔ t.val % 3 = 0 :=
  (by decide +kernel : ∀ t : Fin grid0.N, condR (grid0.coords t) ↔ t.val % 3 = 0)
theorem hcondZ : ∀ t : Fin cfg0.N, condZ (grid0.coords t) ↔ t.val % 3 = 1 :=
  (by decide +kernel : ∀ t : Fin grid0.N, condZ (grid0.coords t) ↔ t.val % 3 = 1)
theorem hcondN : ∀ t : Fin cfg0.N, condN (grid0.coords t) ↔ t.val % 3 = 2 :=
  (by decide +kernel : ∀ t : Fin grid0.N, condN (grid0.coords t) ↔ t.val % 3 = 2)

/-! ## Where the windows are idle -/

theorem live0 : ∀ (w : Fin 8), w.val < 6 → ∀ t : Fin cfg0.N, cfg0.idle w (grid0.coords t) = false := by decide +kernel
theorem idle6 : ∀ t : Fin cfg0.N, t.val % 3 ≠ 2 → cfg0.idle 6 (grid0.coords t) = true := by decide +kernel
theorem idle7 : ∀ t : Fin cfg0.N, t.val % 3 ≠ 2 → cfg0.idle 7 (grid0.coords t) = true := by decide +kernel
theorem live6 : ∀ t : Fin cfg0.N, t.val % 3 = 2 → cfg0.idle 6 (grid0.coords t) = false := by decide +kernel
theorem live7 : ∀ t : Fin cfg0.N, t.val % 3 = 2 → cfg0.idle 7 (grid0.coords t) = false := by decide +kernel
theorem noFlush6 : ∀ t : Fin cfg0.N, t.val % 3 ≠ 2 → (cfg0.win 6).flush t = false := by decide +kernel
theorem noFlush7 : ∀ t : Fin cfg0.N, t.val % 3 ≠ 2 → (cfg0.win 7).flush t = false := by decide +kernel

/-! ## The body's rectangles and what it leaves in each buffer -/

abbrev rX : Rect S128x1024 := Rect.unit (s := S128x1024) ![0, 0] S128x1024.size inb_S128x1024_S128x1024_0_0
abbrev rW : Rect S512x1024 := Rect.unit (s := S512x1024) ![0, 0] S512x1024.size inb_S512x1024_S512x1024_0_0
abbrev rB : Rect S1x512 := Rect.unit (s := S1x512) ![0, 0] S1x512.size inb_S1x512_S1x512_0_0
abbrev rO : Rect S128x512 := Rect.unit (s := S128x512) ![0, 0] S128x512.size inb_S128x512_S128x512_0_0
/-- The columns of the point's half, cut out of a whole [128, 1024] block. -/
abbrev rS (i : grid0.Coords) (h : condN i) : Rect S128x1024 := Rect.unit (s := S128x1024) (k0_off1 i) S128x512.size (k0_off1_inb i h)

/-- The reset gate's scratch after its point: the one store, over the six input blocks. -/
def outR (x0 x1 : Vec F S128x1024 .f32) (x2 x3 : Vec F S512x1024 .f32) (x4 x5 : Vec F S1x512 .f32) : Vec F S128x512 .f32 :=
  View.canon [⟨rO, k0_pay3 (View.ld x0 rX) (View.ld x1 rX) (View.ld x2 rW) (View.ld x3 rW) (View.ld x4 rB) (View.ld x5 rB)⟩]
/-- The update gate's scratch after its point. -/
def outZ (x0 x1 : Vec F S128x1024 .f32) (x2 x3 : Vec F S512x1024 .f32) (x4 x5 : Vec F S1x512 .f32) : Vec F S128x512 .f32 :=
  View.canon [⟨rO, k0_pay4 (View.ld x0 rX) (View.ld x1 rX) (View.ld x2 rW) (View.ld x3 rW) (View.ld x4 rB) (View.ld x5 rB)⟩]
/-- The new hidden state's block after the third point, over the input blocks and the two scratch buffers. -/
def outH (i : grid0.Coords) (h : condN i) (x0 x1 : Vec F S128x1024 .f32) (x2 x3 : Vec F S512x1024 .f32) (x4 x5 : Vec F S1x512 .f32)
    (s0 s1 : Vec F S128x512 .f32) : Vec F S128x512 .f32 :=
  View.canon [⟨rO, k0_pay5 (View.ld x0 rX) (View.ld x1 rX) (View.ld x2 rW) (View.ld x3 rW) (View.ld x4 rB) (View.ld x5 rB)
    (View.ld s0 rO) (View.ld s1 rO) (View.ld x1 (rS i h))⟩]
/-- The block of the new state plus the input after the third point. -/
def outS (i : grid0.Coords) (h : condN i) (x0 x1 : Vec F S128x1024 .f32) (x2 x3 : Vec F S512x1024 .f32) (x4 x5 : Vec F S1x512 .f32)
    (s0 s1 : Vec F S128x512 .f32) : Vec F S128x512 .f32 :=
  View.canon [⟨rO, k0_pay6 (View.ld x0 rX) (View.ld x1 rX) (View.ld x2 rW) (View.ld x3 rW) (View.ld x4 rB) (View.ld x5 rB)
    (View.ld s0 rO) (View.ld s1 rO) (View.ld x1 (rS i h)) (View.ld x0 (rS i h))⟩]

/-- One whole-block store covers the block. -/
theorem coverO (p0 : Vec F S128x512 .f32) (y : S128x512.Idx) :
    ∃ pc ∈ ([⟨rO, p0⟩] : List (View.Piece (Elt F) S128x512 .f32)), y ∈ pc.1.set :=
  View.cover_of_tiled [⟨rO, p0⟩] S128x512.size (by rfl) y

/-! ## The body's triple, case by case -/

set_option maxHeartbeats 4000000 in
/-- At a reset-gate point: the inputs and the two output buffers come back as they were, the second scratch too;
    the first scratch, held at anything, ends at the gate. -/
theorem sound_R (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x512 .f32) (harg11 : arg11.IsWhole)
    (hR : condR i) (hZ : ¬condZ i) (hN : ¬condN i)
    (x0 x1 : Vec F S128x1024 .f32) (x2 x3 : Vec F S512x1024 .f32) (x4 x5 : Vec F S1x512 .f32) (y6 y7 s1 : Vec F S128x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ (∃ d, owns (c : Thread nD τ) arg10 fullShare d) ∗ owns (c : Thread nD τ) arg11 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare (outR x0 x1 x2 x3 x4 x5) ∗ owns (c : Thread nD τ) arg11 fullShare s1) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%f11, %hf11, H11⟩, Hk⟩
  subst hf0 hf1 hf2 hf3 hf4 hf5
  sl_exec (disch := first | exact hR | exact hZ | exact hN)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  isplitl [H7]
  · iexists f7; isplitr; · ipureintro; exact hf7
    iexact H7
  isplitl [H10]
  · iexists _; isplitr
    swap; · iexact H10
    ipureintro
    exact View.read_writes_eq_canon _ _ _ (coverO _)
  iexists f11; isplitr; · ipureintro; exact hf11
  iexact H11

set_option maxHeartbeats 4000000 in
/-- At an update-gate point: everything comes back as it was but the second scratch, which ends at the gate. -/
theorem sound_Z (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x512 .f32) (harg11 : arg11.IsWhole)
    (hR : ¬condR i) (hZ : condZ i) (hN : ¬condN i)
    (x0 x1 : Vec F S128x1024 .f32) (x2 x3 : Vec F S512x1024 .f32) (x4 x5 : Vec F S1x512 .f32) (y6 y7 s0 : Vec F S128x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare y6 ∗ owns (c : Thread nD τ) arg9 fullShare y7
        ∗ owns (c : Thread nD τ) arg10 fullShare s0 ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare y6 ∗ owns (c : Thread nD τ) arg9 fullShare y7
            ∗ owns (c : Thread nD τ) arg10 fullShare s0 ∗ owns (c : Thread nD τ) arg11 fullShare (outZ x0 x1 x2 x3 x4 x5)) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, Hk⟩
  subst hf0 hf1 hf2 hf3 hf4 hf5
  sl_exec (disch := first | exact hR | exact hZ | exact hN)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; exact hf6
    iexact H6
  isplitl [H7]
  · iexists f7; isplitr; · ipureintro; exact hf7
    iexact H7
  isplitl [H10]
  · iexists f10; isplitr; · ipureintro; exact hf10
    iexact H10
  iexists _; isplitr
  swap; · iexact H11
  ipureintro
  exact View.read_writes_eq_canon _ _ _ (coverO _)

set_option maxHeartbeats 4000000 in
/-- At a third point: the inputs and both scratch buffers come back as they were; the two output buffers, held at
    anything, end at the new state's block and at that block plus the input's. -/
theorem sound_N (c : Dev nD) (E : Set ℕ) (i : grid0.Coords)
    (arg2 : Memref sig .tc .vmem S128x1024 .f32) (harg2 : arg2.IsWhole) (arg3 : Memref sig .tc .vmem S128x1024 .f32) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S128x512 .f32) (harg8 : arg8.IsWhole) (arg9 : Memref sig .tc .vmem S128x512 .f32) (harg9 : arg9.IsWhole)
    (arg10 : Memref sig .tc .vmem S128x512 .f32) (harg10 : arg10.IsWhole) (arg11 : Memref sig .tc .vmem S128x512 .f32) (harg11 : arg11.IsWhole)
    (hR : ¬condR i) (hZ : ¬condZ i) (hN : condN i)
    (x0 x1 : Vec F S128x1024 .f32) (x2 x3 : Vec F S512x1024 .f32) (x4 x5 : Vec F S1x512 .f32) (s0 s1 : Vec F S128x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (outH i hN x0 x1 x2 x3 x4 x5 s0 s1) ∗ owns (c : Thread nD τ) arg9 fullShare (outS i hN x0 x1 x2 x3 x4 x5 s0 s1)
            ∗ owns (c : Thread nD τ) arg10 fullShare s0 ∗ owns (c : Thread nD τ) arg11 fullShare s1) -∗ K ⟨⟩))
      ⊢ wp frame (wpE (defs₀ (F := F)) Variants.none c none) E (cc0__gru_kernel i arg2 harg2 arg3 harg3 arg4 harg4 arg5 harg5 arg6 harg6 arg7 harg7 arg8 harg8 arg9 harg9 arg10 harg10 arg11 harg11) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f10, %hf10, H10⟩, ⟨%f11, %hf11, H11⟩, Hk⟩
  subst hf0 hf1 hf2 hf3 hf4 hf5 hf10 hf11
  sl_exec (disch := first | exact hR | exact hZ | exact hN)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverO _)
  isplitl [H7]
  · iexists _; isplitr
    swap; · iexact H7
    ipureintro
    exact View.read_writes_eq_canon _ _ _ (coverO _)
  isplitl [H10]
  · iexists f10; isplitr; · ipureintro; rfl
    iexact H10
  iexists f11; isplitr; · ipureintro; rfl
  iexact H11

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## What the scratch buffers and the output blocks hold, point by point -/

/-- Position `n` of the grid's order, as a point (positions are taken modulo the six points). -/
def pt (n : ℕ) : Fin cfg0.N := ⟨n % 6, by have h : cfg0.N = 6 := N_0; rw [h]; exact Nat.mod_lt _ (by decide)⟩
theorem pt_val (t : Fin cfg0.N) : pt t.val = t := by
  apply Fin.ext; have h : t.val < 6 := lt_of_lt_of_eq t.isLt N_0; show t.val % 6 = t.val; omega

/-- The reset gate of point `t`'s tile. -/
def Rv (c : Dev nD) (t : Fin cfg0.N) : Vec F S128x512 .f32 := outR (iblk0 V c 0 t) (iblk0 V c 1 t) (iblk0 V c 2 t) (iblk0 V c 3 t) (iblk0 V c 4 t) (iblk0 V c 5 t)
/-- The update gate of point `t`'s tile. -/
def Zv (c : Dev nD) (t : Fin cfg0.N) : Vec F S128x512 .f32 := outZ (iblk0 V c 0 t) (iblk0 V c 1 t) (iblk0 V c 2 t) (iblk0 V c 3 t) (iblk0 V c 4 t) (iblk0 V c 5 t)
/-- The new state's block at a third point `t`: from the point's blocks, the reset gate stored two points earlier and the
    update gate stored one point earlier (elsewhere a value nothing reads). -/
def Hv (c : Dev nD) (t : Fin cfg0.N) : Vec F S128x512 .f32 :=
  if h : condN (grid0.coords t) then outH (grid0.coords t) h (iblk0 V c 0 t) (iblk0 V c 1 t) (iblk0 V c 2 t) (iblk0 V c 3 t) (iblk0 V c 4 t) (iblk0 V c 5 t) (Rv V c (pt (t.val - 2))) (Zv V c (pt (t.val - 1)))
  else Rv V c t
/-- The block of the new state plus the input at a third point `t`. -/
def Sv (c : Dev nD) (t : Fin cfg0.N) : Vec F S128x512 .f32 :=
  if h : condN (grid0.coords t) then outS (grid0.coords t) h (iblk0 V c 0 t) (iblk0 V c 1 t) (iblk0 V c 2 t) (iblk0 V c 3 t) (iblk0 V c 4 t) (iblk0 V c 5 t) (Rv V c (pt (t.val - 2))) (Zv V c (pt (t.val - 1)))
  else Rv V c t

/-- What is known of the two scratch buffers before position `n`: past a reset-gate point of the same half the first
    holds that gate, and before a third point the second holds the update gate stored just before. -/
def ScrInv (c : Dev nD) (n : ℕ) (d0 d1 : Vec F S128x512 .f32) : Prop :=
  (n % 3 ≠ 0 → d0 = Rv V c (pt (n - n % 3))) ∧ (n % 3 = 2 → d1 = Zv V c (pt (n - 1)))

/-- The two scratch operands, whole scoped buffers of the kernel's own. -/
abbrev scR : Memref sig .tc .vmem S128x512 .f32 := Memref.whole cc0_scratch0
abbrev scZ : Memref sig .tc .vmem S128x512 .f32 := Memref.whole cc0_scratch1

/-- The other region's staging buffers, at some contents each: scoped buffers this region never touches. -/
def restH (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class's invariant with the two scratch operands as memrefs owned at some contents. -/
theorem PhiA0_eq (c : Dev nD) :
    (Pipeline.ΦA spec0 c : sProp 𝕄)
      = iprop(((∃ d, owns (c : Thread nD τ) scR fullShare d) ∗ (∃ d, owns (c : Thread nD τ) scZ fullShare d) ∗ restH c) ∗ (∃ r, prngReg c r)) := by
  unfold Pipeline.ΦA restH; rw [scopedRest0_eq]; simp only [scR, scZ, owns_whole]; try rfl

/-- The region's invariant before position `n`: the two scratch buffers at contents of which `ScrInv` holds, the
    other scoped buffers at anything, the generator register at some state. -/
def Phi0 (c : Dev nD) (n : ℕ) : sProp 𝕄 :=
  iprop(((∃ d0 d1, ⌜ScrInv V c n d0 d1⌝ ∗ owns (c : Thread nD τ) scR fullShare d0 ∗ owns (c : Thread nD τ) scZ fullShare d1) ∗ restH c) ∗ (∃ r, prngReg c r))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => Hv V c t
    | ⟨7, _⟩ => Sv V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = Hv V c t := by dsimp only [dat0]
theorem after0_7 (c : Dev nD) (t : Fin cfg0.N) : (dat0 V c).after 7 t = Sv V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4000000 in
/-- The body at any point. The inputs' buffers hold their blocks; the position's residue modulo three says which of
    the three cases the point is in; the invariant hands the body the two scratch buffers and takes them back with
    what the case stored; an output block is idle, and handed back untouched, except at a third point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  rw [show (dat0 V c).leavesExact 0 t = owns (c : Thread nD τ) (st0_0 t) fullShare ((dat0 V c).after 0 t) from by
    unfold Dat.leavesExact; rw [live0 0 (by decide) t], after0_0]
  rw [show (dat0 V c).leavesExact 1 t = owns (c : Thread nD τ) (st0_1 t) fullShare ((dat0 V c).after 1 t) from by
    unfold Dat.leavesExact; rw [live0 1 (by decide) t], after0_1]
  rw [show (dat0 V c).leavesExact 2 t = owns (c : Thread nD τ) (st0_2 t) fullShare ((dat0 V c).after 2 t) from by
    unfold Dat.leavesExact; rw [live0 2 (by decide) t], after0_2]
  rw [show (dat0 V c).leavesExact 3 t = owns (c : Thread nD τ) (st0_3 t) fullShare ((dat0 V c).after 3 t) from by
    unfold Dat.leavesExact; rw [live0 3 (by decide) t], after0_3]
  rw [show (dat0 V c).leavesExact 4 t = owns (c : Thread nD τ) (st0_4 t) fullShare ((dat0 V c).after 4 t) from by
    unfold Dat.leavesExact; rw [live0 4 (by decide) t], after0_4]
  rw [show (dat0 V c).leavesExact 5 t = owns (c : Thread nD τ) (st0_5 t) fullShare ((dat0 V c).after 5 t) from by
    unfold Dat.leavesExact; rw [live0 5 (by decide) t], after0_5]
  have hN6 : t.val < 6 := lt_of_lt_of_eq t.isLt N_0
  unfold Phi0
  by_cases h0 : t.val % 3 = 0
  · rw [Dat.leavesExact_idle (dat0 V c) 6 t (idle6 t (by omega)) (noFlush6 t (by omega)),
      Dat.leavesExact_idle (dat0 V c) 7 t (idle7 t (by omega)) (noFlush7 t (by omega))]
    iintro ⟨⟨⟨⟨%d0, %d1, %hinv, HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (sound_R c Set.univ (grid0.coords t) _ _ _ _ _ _ _ _ _ _ _ _ _ _ _ _ _ _ _ _ ((hcondR t).mpr h0)
      (fun h => by have := (hcondZ t).mp h; omega) (fun h => by have := (hcondN t).mp h; omega) (iblk0 V c 0 t) (iblk0 V c 1 t) (iblk0 V c 2 t) (iblk0 V c 3 t) (iblk0 V c 4 t) (iblk0 V c 5 t) _ _ d1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists d0; iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · iexists (outR (iblk0 V c 0 t) (iblk0 V c 1 t) (iblk0 V c 2 t) (iblk0 V c 3 t) (iblk0 V c 4 t) (iblk0 V c 5 t)), d1; isplitr
          · ipureintro
            refine ⟨fun _ => ?_, fun h => by omega⟩
            have e : t.val + 1 - (t.val + 1) % 3 = t.val := by omega
            rw [e, pt_val]; rfl
          isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h1 : t.val % 3 = 1
  · rw [Dat.leavesExact_idle (dat0 V c) 6 t (idle6 t (by omega)) (noFlush6 t (by omega)),
      Dat.leavesExact_idle (dat0 V c) 7 t (idle7 t (by omega)) (noFlush7 t (by omega))]
    iintro ⟨⟨⟨⟨%d0, %d1, %hinv, HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (sound_Z c Set.univ (grid0.coords t) _ _ _ _ _ _ _ _ _ _ _ _ _ _ _ _ _ _ _ _ (fun h => by have := (hcondR t).mp h; omega)
      ((hcondZ t).mpr h1) (fun h => by have := (hcondN t).mp h; omega) (iblk0 V c 0 t) (iblk0 V c 1 t) (iblk0 V c 2 t) (iblk0 V c 3 t) (iblk0 V c 4 t) (iblk0 V c 5 t) _ _ d0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists d1; iexact HS1
    iintro ⟨H0, H1, H2, H3, H4, H5, H6, H7, HS0, HS1⟩
    isplitl [HS0 HS1 Hrest Hg]
    · isplitl [HS0 HS1 Hrest]
      · isplitl [HS0 HS1]
        · iexists d0, (outZ (iblk0 V c 0 t) (iblk0 V c 1 t) (iblk0 V c 2 t) (iblk0 V c 3 t) (iblk0 V c 4 t) (iblk0 V c 5 t)); isplitr
          · ipureintro
            refine ⟨fun _ => ?_, fun _ => ?_⟩
            · have e : t.val + 1 - (t.val + 1) % 3 = t.val - t.val % 3 := by omega
              rw [e]; exact hinv.1 (by omega)
            · rw [Nat.add_sub_cancel, pt_val]; rfl
          isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have h2 : t.val % 3 = 2 := by omega
    rw [show (dat0 V c).leavesExact 6 t = owns (c : Thread nD τ) (st0_6 t) fullShare ((dat0 V c).after 6 t) from by
      unfold Dat.leavesExact; rw [live6 t h2], after0_6]
    rw [show (dat0 V c).leavesExact 7 t = owns (c : Thread nD τ) (st0_7 t) fullShare ((dat0 V c).after 7 t) from by
      unfold Dat.leavesExact; rw [live7 t h2], after0_7]
    unfold Hv Sv
    rw [dif_pos ((hcondN t).mpr h2), dif_pos ((hcondN t).mpr h2)]
    iintro ⟨⟨⟨⟨%d0, %d1, %hinv, HS0, HS1⟩, Hrest⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    have hd0 : d0 = Rv V c (pt (t.val - 2)) := by
      have := hinv.1 (by omega); rwa [show t.val - t.val % 3 = t.val - 2 by omega] at this
    have hd1 : d1 = Zv V c (pt (t.val - 1)) := hinv.2 h2
    subst hd0 hd1
    iapply (sound_N c Set.univ (grid0.coords t) _ _ _ _ _ _ _ _ _ _ _ _ _ _ _ _ _ _ _ _ (fun h => by have := (hcondR t).mp h; omega)
      (fun h => by have := (hcondZ t).mp h; omega) ((hcondN t).mpr h2) (iblk0 V c 0 t) (iblk0 V c 1 t) (iblk0 V c 2 t) (iblk0 V c 3 t) (iblk0 V c 4 t) (iblk0 V c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hrest Hg]
    · isplitl [HS0 HS1 Hrest]
      · isplitl [HS0 HS1]
        · iexists (Rv V c (pt (t.val - 2))), (Zv V c (pt (t.val - 1))); isplitr
          · ipureintro
            exact ⟨fun h => absurd (by omega : (t.val + 1) % 3 = 0) h, fun h => by omega⟩
          isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point: nothing is known of the scratch. -/
theorem hin0 (c : Dev nD) : Pipeline.ΦA spec0 c ⊢ (dat0 V c).Φ 0 := by
  rw [show (dat0 V c).Φ 0 = Phi0 V c 0 from rfl, PhiA0_eq]; unfold Phi0
  iintro ⟨⟨⟨%d0, H0⟩, ⟨%d1, H1⟩, Hrest⟩, Hg⟩
  isplitl [H0 H1 Hrest]
  · isplitl [H0 H1]
    · iexists d0, d1; isplitr
      · ipureintro; exact ⟨fun h => absurd (Nat.zero_mod 3) h, fun h => by omega⟩
      isplitl [H0]; · iexact H0
      iexact H1
    iexact Hrest
  iexact Hg

/-- At any position the invariant gives the class's back: what the scratch buffers hold is forgotten. -/
theorem Phi0_out (c : Dev nD) (n : ℕ) : Phi0 V c n ⊢ Pipeline.ΦA spec0 c := by
  rw [PhiA0_eq]; unfold Phi0
  iintro ⟨⟨⟨%d0, %d1, -, H0, H1⟩, Hrest⟩, Hg⟩
  isplitl [H0 H1 Hrest]
  · isplitl [H0]; · iexists d0; iexact H0
    isplitl [H1]; · iexists d1; iexact H1
    iexact Hrest
  iexact Hg

theorem hout0 (c : Dev nD) : (dat0 V c).Φ (Fin.last cfg0.N) ⊢ Pipeline.ΦA spec0 c :=
  Phi0_out V c _

end Region

end Cert.KernelIdeal.Hand

end
-- ==== Proof.HeadRegion.lean ====
/- The frame data of the second kernel region of @main (custom_call 1, `cc1__mlp_kernel`: one grid point, six
   windows — five inputs and one output, every block the whole array), at a PARAMETER `V`: the TensorCore's buffer
   contents when the region is entered. Each window's block at a point (`iblk1`), the output's buffer after the body
   (`out1_5`), the body's triple (`sound_kernel1`), the pipeline's proof data (`dat1`), the body obligation
   (`body_obligation1`), and the closed forms: the output buffer after the body is the payload of the five inputs
   (`out1_5_eq`) and the output array after the region is that payload of the five input arrays (`final1_5`).
   Everything is generic in the float instance `F`. -/
import proofs.«128325_j22093311770918_2_alg».proof.Proof.Gen.KernelIdeal.Launch
import proofs.«128325_j22093311770918_2_alg».proof.Proof.Gen.KernelIdeal.Skeleton
import proofs.«128325_j22093311770918_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of large extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): an unfetched point has not
    moved the index; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): an unfetched point has not
    moved the index; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): an unfetched point has not
    moved the index; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`): an unfetched point has not
    moved the index; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`): an unfetched point has not
    moved the index; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer's whole-shape rectangle at zero offsets -/

abbrev r1_0 : Rect S128x1024 := Rect.unit (s := S128x1024) ![0, 0] S128x1024.size inb_S128x1024_S128x1024_0_0
abbrev r1_1 : Rect S1024x1024 := Rect.unit (s := S1024x1024) ![0, 0] S1024x1024.size inb_S1024x1024_S1024x1024_0_0
abbrev r1_2 : Rect S1x1024 := Rect.unit (s := S1x1024) ![0, 0] S1x1024.size inb_S1x1024_S1x1024_0_0
abbrev r1_3 : Rect S256x1024 := Rect.unit (s := S256x1024) ![0, 0] S256x1024.size inb_S256x1024_S256x1024_0_0
abbrev r1_4 : Rect S1x256 := Rect.unit (s := S1x256) ![0, 0] S1x256.size inb_S1x256_S1x256_0_0
abbrev r1_5 : Rect S128x256 := Rect.unit (s := S128x256) ![0, 0] S128x256.size inb_S128x256_S128x256_0_0

/-! ## What the body leaves in the output window's buffer -/

/-- Window 5's staging buffer after the body, from the input windows' blocks: its one store as a piece, the payload
    the skeleton's over the five loads. -/
def out1_5 (x0 : Vec F S128x1024 .f32) (x1 : Vec F S1024x1024 .f32) (x2 : Vec F S1x1024 .f32) (x3 : Vec F S256x1024 .f32) (x4 : Vec F S1x256 .f32) : Vec F S128x256 .f32 :=
  View.canon [⟨r1_5, k1_pay1 (View.ld x0 r1_0) (View.ld x1 r1_1) (View.ld x2 r1_2) (View.ld x3 r1_3) (View.ld x4 r1_4)⟩]

/-- The one store tiles the buffer (one block, the whole shape), so it covers it. -/
theorem cover1_5 (p0 : Vec F S128x256 .f32) (y : S128x256.Idx) :
    ∃ pc ∈ ([⟨r1_5, p0⟩] : List (View.Piece (Elt F) S128x256 .f32)), y ∈ pc.1.set :=
  View.cover_of_tiled [⟨r1_5, p0⟩] S128x256.size (by rfl) y

/-! ## The body's triple -/

set_option maxHeartbeats 1000000 in
/-- The kernel body on whole staging memrefs, the inputs' at read contents `xW` and the output's at anything (the body
    loads the output buffer before it stores into it; the loaded value is not used), runs to the continuation holding
    the inputs' as they were and the output's at `out1_5` of the inputs'. -/
theorem sound_kernel1 (c : Dev nD) (E : Set ℕ) (i : grid1.Coords) (arg1 : Memref sig .tc .vmem S128x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S1x256 .f32) (harg5 : arg5.IsWhole) (arg6 : Memref sig .tc .vmem S128x256 .f32) (harg6 : arg6.IsWhole)
    (x0 : Vec F S128x1024 .f32) (x1 : Vec F S1024x1024 .f32) (x2 : Vec F S1x1024 .f32) (x3 : Vec F S256x1024 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point `t`
    each input's buffer at its block and the output's at `out1_5` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Closed forms: the output buffer is the payload; the output array after the region -/

/-- The zero offsets, as the rectangles spell them. -/
theorem hz1 : (![0, 0] : Fin 2 → Nat) = fun _ => 0 := funext fun a => by fin_cases a <;> rfl

/-- One whole-shape store leaves its payload, and a load through a whole-shape rectangle at zero offsets reads the
    contents: the output window's buffer after the body is the payload of the five input buffers. -/
theorem out1_5_eq (x0 : Vec F S128x1024 .f32) (x1 : Vec F S1024x1024 .f32) (x2 : Vec F S1x1024 .f32) (x3 : Vec F S256x1024 .f32) (x4 : Vec F S1x256 .f32) :
    out1_5 x0 x1 x2 x3 x4 = k1_pay1 x0 x1 x2 x3 x4 := by
  unfold out1_5
  rw [View.canon_unit_zero hz1]
  simp only [View.ld_unit_zero (S := S128x1024) hz1, View.ld_unit_zero (S := S1024x1024) hz1, View.ld_unit_zero (S := S1x1024) hz1,
    View.ld_unit_zero (S := S256x1024) hz1, View.ld_unit_zero (S := S1x256) hz1]

/-- Every window's block index is zero on both axes at every point (the index maps are constant), decided over the grid. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- An element of a window's block sits in the array at its own index: the block is the whole array (a block's coordinate
    is the block index times the block's size plus the coordinate inside the block, and the index is zero). -/
theorem blk_emb1_0 (t : Fin cfg1.N) (j : S128x1024.Idx) : ((cfg1.win 0).blk t).view.emb j = j := by
  have e := idx1 t
  funext a; apply Fin.ext
  match a with
  | ⟨0, _⟩ => show win1_0.index t (0 : Fin 2) * 128 + 1 * (j 0).val = (j 0).val; omega
  | ⟨1, _⟩ => show win1_0.index t (1 : Fin 2) * 1024 + 1 * (j 1).val = (j 1).val; omega
theorem blk_emb1_1 (t : Fin cfg1.N) (j : S1024x1024.Idx) : ((cfg1.win 1).blk t).view.emb j = j := by
  have e := idx1 t
  funext a; apply Fin.ext
  match a with
  | ⟨0, _⟩ => show win1_1.index t (0 : Fin 2) * 1024 + 1 * (j 0).val = (j 0).val; omega
  | ⟨1, _⟩ => show win1_1.index t (1 : Fin 2) * 1024 + 1 * (j 1).val = (j 1).val; omega
theorem blk_emb1_2 (t : Fin cfg1.N) (j : S1x1024.Idx) : ((cfg1.win 2).blk t).view.emb j = j := by
  have e := idx1 t
  funext a; apply Fin.ext
  match a with
  | ⟨0, _⟩ => show win1_2.index t (0 : Fin 2) * 1 + 1 * (j 0).val = (j 0).val; omega
  | ⟨1, _⟩ => show win1_2.index t (1 : Fin 2) * 1024 + 1 * (j 1).val = (j 1).val; omega
theorem blk_emb1_3 (t : Fin cfg1.N) (j : S256x1024.Idx) : ((cfg1.win 3).blk t).view.emb j = j := by
  have e := idx1 t
  funext a; apply Fin.ext
  match a with
  | ⟨0, _⟩ => show win1_3.index t (0 : Fin 2) * 256 + 1 * (j 0).val = (j 0).val; omega
  | ⟨1, _⟩ => show win1_3.index t (1 : Fin 2) * 1024 + 1 * (j 1).val = (j 1).val; omega
theorem blk_emb1_4 (t : Fin cfg1.N) (j : S1x256.Idx) : ((cfg1.win 4).blk t).view.emb j = j := by
  have e := idx1 t
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega
theorem blk_emb1_5 (t : Fin cfg1.N) (j : S128x256.Idx) : ((cfg1.win 5).blk t).view.emb j = j := by
  have e := idx1 t
  funext a; apply Fin.ext
  match a with
  | ⟨0, _⟩ => show win1_5.index t (0 : Fin 2) * 128 + 1 * (j 0).val = (j 0).val; omega
  | ⟨1, _⟩ => show win1_5.index t (1 : Fin 2) * 256 + 1 * (j 1).val = (j 1).val; omega

/-- So each input window's block at any point is its whole array as the region finds it. -/
theorem iblk1_0 (c : Dev nD) (t : Fin cfg1.N) : iblk1 V c 0 t = V c main_v2_1 := by
  funext j
  show V c main_v2_1 (((cfg1.win 0).blk t).view.emb j) = V c main_v2_1 j
  exact congrArg (V c main_v2_1) (blk_emb1_0 t j)
theorem iblk1_1 (c : Dev nD) (t : Fin cfg1.N) : iblk1 V c 1 t = V c main_arg6 := by
  funext j
  show V c main_arg6 (((cfg1.win 1).blk t).view.emb j) = V c main_arg6 j
  exact congrArg (V c main_arg6) (blk_emb1_1 t j)
theorem iblk1_2 (c : Dev nD) (t : Fin cfg1.N) : iblk1 V c 2 t = V c main_v3 := by
  funext j
  show V c main_v3 (((cfg1.win 2).blk t).view.emb j) = V c main_v3 j
  exact congrArg (V c main_v3) (blk_emb1_2 t j)
theorem iblk1_3 (c : Dev nD) (t : Fin cfg1.N) : iblk1 V c 3 t = V c main_arg8 := by
  funext j
  show V c main_arg8 (((cfg1.win 3).blk t).view.emb j) = V c main_arg8 j
  exact congrArg (V c main_arg8) (blk_emb1_3 t j)
theorem iblk1_4 (c : Dev nD) (t : Fin cfg1.N) : iblk1 V c 4 t = V c main_v4 := by
  funext j
  show V c main_v4 (((cfg1.win 4).blk t).view.emb j) = V c main_v4 j
  exact congrArg (V c main_v4) (blk_emb1_4 t j)

/-- WHAT A POINT WRITES BACK is its block — the whole array — of `out1_5` of the five input arrays as the region finds them. -/
theorem flushed1_5_eq (c : Dev nD) (t : Fin cfg1.N) :
    (dat1 V c).flushed 5 t = ((cfg1.win 5).blk t).view.read (Elt F) (out1_5 (V c main_v2_1) (V c main_arg6) (V c main_v3) (V c main_arg8) (V c main_v4)) := by
  show (cfg1.win 5).cut (grid1.coords t) ((dat1 V c).after 5 t) = _
  rw [after1_5, iblk1_0, iblk1_1, iblk1_2, iblk1_3, iblk1_4]
  funext j
  show out1_5 (V c main_v2_1) (V c main_arg6) (V c main_v3) (V c main_arg8) (V c main_v4) j
    = out1_5 (V c main_v2_1) (V c main_arg6) (V c main_v3) (V c main_arg8) (V c main_v4) (((cfg1.win 5).blk t).view.emb j)
  exact (congrArg _ (blk_emb1_5 t j)).symm

/-- An index of the output array is in point `t`'s block iff each coordinate is in the block's range on its axis. -/
theorem mem_blk1_5 (t : Fin cfg1.N) (i : S128x256.Idx) :
    i ∈ ((cfg1.win 5).blk t).view.set ↔ ∀ a : Fin 2, win1_5.index t a * S128x256.size a ≤ (i a).val ∧ (i a).val < win1_5.index t a * S128x256.size a + S128x256.size a := by
  show i ∈ ((View.whole main_v5).slice (win1_5.rect t)).set ↔ _
  rw [View.set_slice_whole, Rect.mem_set_unit]
  exact Iff.rfl

/-- The one point's block covers the output array. -/
theorem cover_arr1_5 (i : S128x256.Idx) : ∃ t : Fin cfg1.N, (cfg1.win 5).flush t = true ∧ i ∈ ((cfg1.win 5).blk t).view.set := by
  refine ⟨t1_0, flush1_5 t1_0, ?_⟩
  rw [mem_blk1_5]
  have e := idx1 t1_0
  have hi0 : (i 0).val < 128 := (i 0).isLt
  have hi1 : (i 1).val < 256 := (i 1).isLt
  intro a
  match a with
  | ⟨0, _⟩ => show win1_5.index t1_0 (0 : Fin 2) * 128 ≤ (i 0).val ∧ (i 0).val < win1_5.index t1_0 (0 : Fin 2) * 128 + 128; omega
  | ⟨1, _⟩ => show win1_5.index t1_0 (1 : Fin 2) * 256 ≤ (i 1).val ∧ (i 1).val < win1_5.index t1_0 (1 : Fin 2) * 256 + 256; omega

/-- THE OUTPUT ARRAY after the region: `out1_5` of the five input arrays as the region finds them (one grid point,
    every block the whole array). -/
theorem final1_5 (c : Dev nD) :
    (dat1 V c).arrAt 5 cfg1.N = out1_5 (V c main_v2_1) (V c main_arg6) (V c main_v3) (V c main_arg8) (V c main_v4) :=
  (dat1 V c).arrAt_eq_of_cover 5 _ (fun t _ => flushed1_5_eq V c t) cover_arr1_5

end Region1

end Cert.KernelIdeal.Hand

end
-- ==== Proof.RunMain.lean ====
import proofs.«128325_j22093311770918_2_alg».proof.Proof.CellRegion
import proofs.«128325_j22093311770918_2_alg».proof.Proof.HeadRegion
import proofs.«128325_j22093311770918_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program's run

@main is two short stretches of host reshapes and the two kernel regions. The contents of the TensorCore's unscoped
buffers are followed from the launch memory through the four items; every execution terminates with those buffers at
the last of these contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first two reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the next two reshapes (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 1).trans (((dat1 (V3 m ρ) c).arrAt_in 1 rfl _).trans (A_eq1 (V3 m ρ) c 1))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 3).trans (((dat1 (V3 m ρ) c).arrAt_in 3 rfl _).trans (A_eq1 (V3 m ρ) c 3))
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

/-! ## The two results, read back through the items -/

/-- The second result is what the first region's write-backs leave in its first output array: no later item writes it. -/
theorem W4_main_v2_0 (c : Dev nD) : W4 m ρ c (Proc.devRef .tc main_v2_0) = (dat0 (V1 m ρ) c).arrAt 6 cfg0.N :=
  calc W4 m ρ c (Proc.devRef .tc main_v2_0)
    _ = W3 m ρ c (Proc.devRef .tc main_v2_0) := W4_of_ne m ρ c main_v2_0 (by decide)
    _ = W2 m ρ c (Proc.devRef .tc main_v2_0) := StableHlo.after_of_writes_sub hostOps1 _ hostOps1_writes (by decide)
    _ = (dat0 (V1 m ρ) c).arrAt 6 cfg0.N := W2_arr m ρ c 6
/-- The first result is what the second region's one write-back leaves. -/
theorem W4_main_v5 (c : Dev nD) : W4 m ρ c (Proc.devRef .tc main_v5) = (dat1 (V3 m ρ) c).arrAt 5 cfg1.N := W4_arr m ρ c 5
/-- What the second region reads as its first operand is what the first region left in its second output array. -/
theorem V3_main_v2_1 (c : Dev nD) : V3 m ρ c main_v2_1 = (dat0 (V1 m ρ) c).arrAt 7 cfg0.N :=
  (StableHlo.after_of_writes_sub hostOps1 _ hostOps1_writes (by decide)).trans (W2_arr m ρ c 7)
theorem V3_of_W1 (c : Dev nD) (b : Ref sig .tc) (h1 : b ∉ hostOps1_W) (h0 : ∀ w, Pipeline.arrRef spec0 w ≠ b) : V3 m ρ c b = W1 m ρ c (Proc.devRef .tc b) :=
  (StableHlo.after_of_writes_sub hostOps1 _ hostOps1_writes h1).trans (W2_of_ne m ρ c b h0)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (hin0 (V1 m ρ) c)
    unfold Pipeline.ΦA
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in every
    final state each unscoped buffer of the TensorCore holds the last of the contents followed above. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun s h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_main m ρ)

end Cert.KernelIdeal.Hand

end
-- ==== Proof.GruSpec.lean ====
/-
  The function both programs compute, entry by entry, on the extended reals.

  One step of a gated recurrent cell followed by a two-layer head.  With `x` and `h` of shape [128, 1024], stacked gate
  weights `wi`, `wh` of shape [3072, 1024] (rows 0..1023 the reset gate, 1024..2047 the update gate, 2048..3071 the
  candidate) and stacked biases `bi`, `bh` of length 3072:

    pre a w b (g, p, q)  =  (sum over k of a[p,k] * w[g*1024+q, k]) + b[g*1024+q]
    r  = logistic (pre x wi bi 0 + pre h wh bh 0)
    z  = logistic (pre x wi bi 1 + pre h wh bh 1)
    n  = tanh (pre x wi bi 2 + r * pre h wh bh 2)
    h' = (1 - z) * n + z * h                      -- the second result
    s  = h' + x
    u  = max (s * w1^T + b1, 0)                   -- w1 : [1024,1024]
    o  = u * w3^T + b3                            -- w3 : [256,1024]; the first result

  Every sum is the plain finite sum over the contracted coordinate; `1` and `0` are kept as the float words the two
  programs spell them with.  No law of arithmetic is used anywhere: the two programs perform these operations in this
  order, so nothing here depends on the inputs being finite.
-/
import Idealize.ShloMosaic.PureOps.Ideal.Laws
import Idealize.ShloMosaic.Lib.ValueIdx

noncomputable section

open scoped BigOperators

namespace GruSpec

open Idealize.ShloMosaic Idealize.ShloMosaic.ValueIdx

/-- Row `p` of `a` against row `j` of `w` (both contracted along their last axis), plus entry `j` of the bias. -/
def dense {M K N : Nat} (a : FVec Ideal ⟨2, ![M, K]⟩ .f32) (w : FVec Ideal ⟨2, ![N, K]⟩ .f32)
    (b : FVec Ideal ⟨1, ![N]⟩ .f32) (p : Fin M) (j : Fin N) : EReal :=
  (∑ k : Fin K, a (ix2 p k) * w (ix2 j k)) + b (ix1 j)

/-- Row `g * 1024 + q` of the stacked gate parameters: gate `g`, hidden position `q`. -/
def gate (g : Fin 3) (q : Fin 1024) : Fin 3072 := ⟨g.val * 1024 + q.val, by omega⟩

/-- The word both programs write for the number one. -/
abbrev oneW : EReal := Ideal.ofBits .f32 0x3F800000#32
/-- The word both programs write for the number zero. -/
abbrev zeroW : EReal := Ideal.ofBits .f32 0x00000000#32

section Cell

variable (x h : FVec Ideal ⟨2, ![128, 1024]⟩ .f32) (wi wh : FVec Ideal ⟨2, ![3072, 1024]⟩ .f32)
  (bi bh : FVec Ideal ⟨1, ![3072]⟩ .f32)

/-- The reset gate at row `p`, hidden position `q`. -/
def rgate (p : Fin 128) (q : Fin 1024) : EReal :=
  Ideal.logistic (dense x wi bi p (gate 0 q) + dense h wh bh p (gate 0 q))
/-- The update gate. -/
def zgate (p : Fin 128) (q : Fin 1024) : EReal :=
  Ideal.logistic (dense x wi bi p (gate 1 q) + dense h wh bh p (gate 1 q))
/-- The candidate state. -/
def ngate (p : Fin 128) (q : Fin 1024) : EReal :=
  Ideal.tanh (dense x wi bi p (gate 2 q) + rgate x h wi wh bi bh p q * dense h wh bh p (gate 2 q))
/-- The new hidden state at `(p, q)`. -/
def hnew (p : Fin 128) (q : Fin 1024) : EReal :=
  (oneW - zgate x h wi wh bi bh p q) * ngate x h wi wh bi bh p q + zgate x h wi wh bi bh p q * h (ix2 p q)
/-- The new hidden state as an array: the programs' second result. -/
def H1P : FVec Ideal ⟨2, ![128, 1024]⟩ .f32 := fun i => hnew x h wi wh bi bh (i 0) (i 1)
/-- The new hidden state plus the input: what the head reads. -/
def RES : FVec Ideal ⟨2, ![128, 1024]⟩ .f32 := fun i => hnew x h wi wh bi bh (i 0) (i 1) + x i

end Cell

section Head

variable (s : FVec Ideal ⟨2, ![128, 1024]⟩ .f32) (w1 : FVec Ideal ⟨2, ![1024, 1024]⟩ .f32) (b1 : FVec Ideal ⟨1, ![1024]⟩ .f32)
  (w3 : FVec Ideal ⟨2, ![256, 1024]⟩ .f32) (b3 : FVec Ideal ⟨1, ![256]⟩ .f32)

/-- The head's hidden layer: a dense layer clipped below at zero. -/
def HID : FVec Ideal ⟨2, ![128, 1024]⟩ .f32 := fun i => max (dense s w1 b1 (i 0) (i 1)) zeroW
/-- The head's output: the programs' first result, from the array `s` the head reads. -/
def OUT : FVec Ideal ⟨2, ![128, 256]⟩ .f32 := fun i => dense (HID s w1 b1) w3 b3 (i 0) (i 1)

end Head

end GruSpec

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.PayValue.lean ====
/-
  The arithmetic of the two kernel functions, read entry by entry on the extended reals.

  Each value a kernel function stores is a pure term over the values it loaded.  Here every such term is
  evaluated at an index: a narrowing format change is the identity, a shape cast to the same shape is the
  identity, a row broadcast down the rows reads the row, and the matrix unit's product into the zero block is the
  plain finite sum over the contracted coordinate.  The results are then matched, tile by tile, with the
  specification's gated recurrent cell and two-layer head.  No law of arithmetic is used: both sides perform the
  same operations in the same order.
-/
import proofs.«128325_j22093311770918_2_alg».proof.Proof.Gen.KernelIdeal.Skeleton
import proofs.«128325_j22093311770918_2_alg».proof.Proof.GruSpec
import proofs.«128325_j22093311770918_2_alg».proof.Proof.LibMatmulNT
import Idealize.ShloMosaic.Lib.ValueLayout
import Idealize.ShloMosaic.Lib.Pipeline.Value

noncomputable section

open scoped BigOperators

namespace Cert.KernelIdeal.PayValue

open Cert.KernelIdeal Cert.KernelIdeal.Gen Idealize.ShloMosaic Idealize.ShloMosaic.ValueIdx

/-- Hidden position of lane `q` in half `hh`. -/
def col (hh : Fin 2) (q : Fin 512) : Fin 1024 := ⟨hh.val * 512 + q.val, by omega⟩

/-- Row of the stacked gate weights that tile `(g, hh)` holds at its row `q`. -/
def tileRow (g : Fin 3) (hh : Fin 2) (q : Fin 512) : Fin 3072 := ⟨(g.val * 2 + hh.val) * 512 + q.val, by omega⟩

/-- Gate `g` at the hidden position of lane `q` in half `hh` is row `q` of tile `(g, hh)`. -/
theorem gate_col (g : Fin 3) (hh : Fin 2) (q : Fin 512) : GruSpec.gate g (col hh q) = tileRow g hh q := by
  apply Fin.ext
  show g.val * 1024 + (hh.val * 512 + q.val) = (g.val * 2 + hh.val) * 512 + q.val
  omega

/-! ## The building blocks at an index -/

/-- A row of shape `[1, n]` broadcast down `m` rows reads the row's entry in the same column. -/
theorem rowBroadcast_apply {m n : Nat} (v : FVec Ideal ⟨2, ![1, n]⟩ .f32)
    (h : (⟨2, ![1, n]⟩ : Shape).Broadcasts ⟨2, ![m, n]⟩) (p : Fin m) (q : Fin n) :
    broadcastTo ⟨2, ![m, n]⟩ v h (ix2 p q) = v (ix2 (0 : Fin 1) q) := by
  refine broadcastTo_apply v h (ix2 p q) (ix2 (0 : Fin 1) q) ?_
  intro a
  match a with
  | ⟨0, _⟩ => rfl
  | ⟨1, _⟩ =>
    show q.val = if n = 1 then 0 else q.val
    split
    · next h1 => subst h1; omega
    · rfl

/-- The matrix unit's product of an `[M, K]` block against an `[N, K]` block (last axes contracted) into the zero
    block, whatever the proof carried by the dimension record. -/
theorem dot0_apply (v : FVec Ideal S128x1024 .bf16) (w : FVec Ideal S512x1024 .bf16) (p : Fin 128) (q : Fin 512) :
    matmul dot_S128x1024_S512x1024_S128x512_1_1_0_0_n_n none v w (constant (F := Ideal) S128x512 .f32 0x00000000#32) (ix2 p q)
      = ∑ k : Fin 1024, v (ix2 p k) * w (ix2 q k) :=
  LibMatmulNT.matmul_zero_apply 128 1024 512 none v w p q

/-- The first pre-activation: the input block against a weight tile, plus the tile's bias row. -/
theorem pay1_apply (v0 : Vec Ideal S128x1024 .f32) (v4 : Vec Ideal S512x1024 .f32) (v8 : Vec Ideal S1x512 .f32)
    (p : Fin 128) (q : Fin 512) :
    k0_pay1 (F := Ideal) v0 v4 v8 (ix2 p q) = (∑ k : Fin 1024, v0 (ix2 p k) * v4 (ix2 q k)) + v8 (ix2 (0 : Fin 1) q) := by
  unfold k0_pay1
  refine (addf_apply _ _ _).trans ?_
  refine congrArg₂ (· + ·) ?_ ?_
  · exact dot0_apply _ _ p q
  · rw [shapeCast_self]
    exact rowBroadcast_apply v8 _ p q

/-- The second pre-activation: the state block against a weight tile, plus the tile's bias row. -/
theorem pay2_apply (v2 : Vec Ideal S128x1024 .f32) (v6 : Vec Ideal S512x1024 .f32) (v10 : Vec Ideal S1x512 .f32)
    (p : Fin 128) (q : Fin 512) :
    k0_pay2 (F := Ideal) v2 v6 v10 (ix2 p q) = (∑ k : Fin 1024, v2 (ix2 p k) * v6 (ix2 q k)) + v10 (ix2 (0 : Fin 1) q) := by
  unfold k0_pay2
  refine (addf_apply _ _ _).trans ?_
  refine congrArg₂ (· + ·) ?_ ?_
  · exact dot0_apply _ _ p q
  · rw [shapeCast_self]
    exact rowBroadcast_apply v10 _ p q

/-! ## The gates and the new state at an index -/

/-- The reset-gate payload: the logistic of the sum of the two pre-activations. -/
theorem pay3_apply (v0 v2 : Vec Ideal S128x1024 .f32) (v4 v6 : Vec Ideal S512x1024 .f32) (v8 v10 : Vec Ideal S1x512 .f32)
    (p : Fin 128) (q : Fin 512) :
    k0_pay3 (F := Ideal) v0 v2 v4 v6 v8 v10 (ix2 p q)
      = Ideal.logistic (k0_pay1 (F := Ideal) v0 v4 v8 (ix2 p q) + k0_pay2 (F := Ideal) v2 v6 v10 (ix2 p q)) := by
  unfold k0_pay3
  rw [shapeCast_self]
  rfl

/-- The update-gate payload: the same term over the update gate's tiles. -/
theorem pay4_apply (v0 v2 : Vec Ideal S128x1024 .f32) (v4 v6 : Vec Ideal S512x1024 .f32) (v8 v10 : Vec Ideal S1x512 .f32)
    (p : Fin 128) (q : Fin 512) :
    k0_pay4 (F := Ideal) v0 v2 v4 v6 v8 v10 (ix2 p q)
      = Ideal.logistic (k0_pay1 (F := Ideal) v0 v4 v8 (ix2 p q) + k0_pay2 (F := Ideal) v2 v6 v10 (ix2 p q)) := by
  unfold k0_pay4
  rw [shapeCast_self]
  rfl

/-- The new-state payload: `(1 - z) * tanh (a + r * b) + z * h` at an index. -/
theorem pay5_apply (v0 v2 : Vec Ideal S128x1024 .f32) (v4 v6 : Vec Ideal S512x1024 .f32) (v8 v10 : Vec Ideal S1x512 .f32)
    (v27 v28 v35 : Vec Ideal S128x512 .f32) (p : Fin 128) (q : Fin 512) :
    k0_pay5 (F := Ideal) v0 v2 v4 v6 v8 v10 v27 v28 v35 (ix2 p q)
      = (GruSpec.oneW - v28 (ix2 p q))
          * Ideal.tanh (k0_pay1 (F := Ideal) v0 v4 v8 (ix2 p q) + v27 (ix2 p q) * k0_pay2 (F := Ideal) v2 v6 v10 (ix2 p q))
        + v28 (ix2 p q) * v35 (ix2 p q) := rfl

/-- The payload the head reads: the new state plus the input slice. -/
theorem pay6_apply (v0 v2 : Vec Ideal S128x1024 .f32) (v4 v6 : Vec Ideal S512x1024 .f32) (v8 v10 : Vec Ideal S1x512 .f32)
    (v27 v28 v35 v37 : Vec Ideal S128x512 .f32) (p : Fin 128) (q : Fin 512) :
    k0_pay6 (F := Ideal) v0 v2 v4 v6 v8 v10 v27 v28 v35 v37 (ix2 p q)
      = k0_pay5 (F := Ideal) v0 v2 v4 v6 v8 v10 v27 v28 v35 (ix2 p q) + v37 (ix2 p q) := rfl

/-! ## The head -/

/-- The matrix unit's product of the head's first layer, into the zero block. -/
theorem dot1_apply (v : FVec Ideal S128x1024 .bf16) (w : FVec Ideal S1024x1024 .bf16) (p : Fin 128) (q : Fin 1024) :
    matmul dot_S128x1024_S1024x1024_S128x1024_1_1_0_0_n_n none v w (constant (F := Ideal) S128x1024 .f32 0x00000000#32) (ix2 p q)
      = ∑ k : Fin 1024, v (ix2 p k) * w (ix2 q k) :=
  LibMatmulNT.matmul_zero_apply 128 1024 1024 none v w p q

/-- The matrix unit's product of the head's second layer, into the zero block. -/
theorem dot2_apply (v : FVec Ideal S128x1024 .bf16) (w : FVec Ideal S256x1024 .bf16) (p : Fin 128) (q : Fin 256) :
    matmul dot_S128x1024_S256x1024_S128x256_1_1_0_0_n_n none v w (constant (F := Ideal) S128x256 .f32 0x00000000#32) (ix2 p q)
      = ∑ k : Fin 1024, v (ix2 p k) * w (ix2 q k) :=
  LibMatmulNT.matmul_zero_apply 128 1024 256 none v w p q

/-- The head's hidden layer as the kernel spells it — the first product plus its bias row, clipped below by the
    broadcast zero word — is the specification's hidden layer at every index. -/
theorem hidden_apply (s : Vec Ideal S128x1024 .f32) (w1 : Vec Ideal S1024x1024 .f32) (b1r : Vec Ideal S1x1024 .f32)
    (b1 : Vec Ideal S1024 .f32) (hb1 : ∀ j : Fin 1024, b1r (ix2 (0 : Fin 1) j) = b1 (ix1 j)) (p : Fin 128) (j : Fin 1024) :
    maximumf (addf (matmul dot_S128x1024_S1024x1024_S128x1024_1_1_0_0_n_n none
          (truncf .bf16 (shapeCast S128x1024 s shapeCasts_S128x1024_S128x1024) bitsLt_bf16_f32)
          (truncf .bf16 w1 bitsLt_bf16_f32) (constant (F := Ideal) S128x1024 .f32 0x00000000#32))
        (broadcastTo S128x1024 (shapeCast S1x1024 b1r shapeCasts_S1x1024_S1x1024) broadcasts_S1x1024_S128x1024))
      (broadcast S128x1024 (Scalar.ofBits (F := Ideal) .f32 0x00000000#32)) (ix2 p j)
    = GruSpec.HID s w1 b1 (ix2 p j) := by
  refine (maximumf_apply _ _ _).trans ?_
  show max _ _ = max (GruSpec.dense s w1 b1 p j) GruSpec.zeroW
  refine congrArg₂ max ?_ ?_
  · refine (addf_apply _ _ _).trans ?_
    unfold GruSpec.dense
    refine congrArg₂ (· + ·) ?_ ?_
    · rw [shapeCast_self]
      exact dot1_apply _ _ p j
    · rw [shapeCast_self]
      exact (rowBroadcast_apply b1r _ p j).trans (hb1 j)
  · rfl

/-- The head kernel's stored value is the specification's output, from the array it reads. -/
theorem head_eq (s : Vec Ideal S128x1024 .f32) (w1 : Vec Ideal S1024x1024 .f32) (b1r : Vec Ideal S1x1024 .f32)
    (w3 : Vec Ideal S256x1024 .f32) (b3r : Vec Ideal S1x256 .f32) (b1 : Vec Ideal S1024 .f32) (b3 : Vec Ideal S256 .f32)
    (hb1 : ∀ j : Fin 1024, b1r (ix2 (0 : Fin 1) j) = b1 (ix1 j))
    (hb3 : ∀ j : Fin 256, b3r (ix2 (0 : Fin 1) j) = b3 (ix1 j)) :
    k1_pay1 (F := Ideal) s w1 b1r w3 b3r = GruSpec.OUT s w1 b1 w3 b3 := by
  funext i
  obtain ⟨p, q, rfl⟩ : ∃ p q, i = ix2 p q := ⟨i 0, i 1, eq_ix2 i⟩
  unfold k1_pay1
  refine (addf_apply _ _ _).trans ?_
  show _ = GruSpec.dense (GruSpec.HID s w1 b1) w3 b3 p q
  unfold GruSpec.dense
  refine congrArg₂ (· + ·) ?_ ?_
  · refine (dot2_apply _ _ p q).trans ?_
    refine Finset.sum_congr rfl fun k _ => ?_
    refine congrArg₂ (· * ·) ?_ rfl
    exact (truncf_apply (ψ := .bf16) _ bitsLt_bf16_f32 (ix2 p k)).trans (hidden_apply s w1 b1r b1 hb1 p k)
  · rw [shapeCast_self]
    exact (rowBroadcast_apply b3r _ p q).trans (hb3 q)

/-! ## The cell at a tile

  The kernel works on one half `hh` of the hidden positions at a time, with the three gates' weight tiles and bias
  rows for that half: row `q` of gate `g`'s tile is row `tileRow g hh q` of the stacked weights, and lane `q` of a
  column slice is hidden position `col hh q`. -/

/-- An input-side pre-activation over a tile is the specification's dense layer at the tile's gate row. -/
theorem pay1_dense (a : Vec Ideal S128x1024 .f32) (w : Vec Ideal S3072x1024 .f32) (b : Vec Ideal S3072 .f32)
    (g : Fin 3) (hh : Fin 2) (wt : Vec Ideal S512x1024 .f32) (bt : Vec Ideal S1x512 .f32)
    (hw : ∀ (q : Fin 512) (k : Fin 1024), wt (ix2 q k) = w (ix2 (tileRow g hh q) k))
    (hb : ∀ q : Fin 512, bt (ix2 (0 : Fin 1) q) = b (ix1 (tileRow g hh q))) (p : Fin 128) (q : Fin 512) :
    k0_pay1 (F := Ideal) a wt bt (ix2 p q) = GruSpec.dense a w b p (GruSpec.gate g (col hh q)) := by
  rw [gate_col]
  refine (pay1_apply a wt bt p q).trans ?_
  unfold GruSpec.dense
  refine congrArg₂ (· + ·) (Finset.sum_congr rfl fun k _ => ?_) (hb q)
  exact congrArg (a (ix2 p k) * ·) (hw q k)

/-- A state-side pre-activation over a tile is the specification's dense layer at the tile's gate row. -/
theorem pay2_dense (a : Vec Ideal S128x1024 .f32) (w : Vec Ideal S3072x1024 .f32) (b : Vec Ideal S3072 .f32)
    (g : Fin 3) (hh : Fin 2) (wt : Vec Ideal S512x1024 .f32) (bt : Vec Ideal S1x512 .f32)
    (hw : ∀ (q : Fin 512) (k : Fin 1024), wt (ix2 q k) = w (ix2 (tileRow g hh q) k))
    (hb : ∀ q : Fin 512, bt (ix2 (0 : Fin 1) q) = b (ix1 (tileRow g hh q))) (p : Fin 128) (q : Fin 512) :
    k0_pay2 (F := Ideal) a wt bt (ix2 p q) = GruSpec.dense a w b p (GruSpec.gate g (col hh q)) := by
  rw [gate_col]
  refine (pay2_apply a wt bt p q).trans ?_
  unfold GruSpec.dense
  refine congrArg₂ (· + ·) (Finset.sum_congr rfl fun k _ => ?_) (hb q)
  exact congrArg (a (ix2 p k) * ·) (hw q k)

/-- The reset-gate payload over the reset gate's tiles is the specification's reset gate. -/
theorem rgate_tile (x h : Vec Ideal S128x1024 .f32) (wi wh : Vec Ideal S3072x1024 .f32) (bi bh : Vec Ideal S3072 .f32)
    (hh : Fin 2) (wi0 wh0 : Vec Ideal S512x1024 .f32) (bi0 bh0 : Vec Ideal S1x512 .f32)
    (hwi0 : ∀ (q : Fin 512) (k : Fin 1024), wi0 (ix2 q k) = wi (ix2 (tileRow 0 hh q) k))
    (hwh0 : ∀ (q : Fin 512) (k : Fin 1024), wh0 (ix2 q k) = wh (ix2 (tileRow 0 hh q) k))
    (hbi0 : ∀ q : Fin 512, bi0 (ix2 (0 : Fin 1) q) = bi (ix1 (tileRow 0 hh q)))
    (hbh0 : ∀ q : Fin 512, bh0 (ix2 (0 : Fin 1) q) = bh (ix1 (tileRow 0 hh q))) (p : Fin 128) (q : Fin 512) :
    k0_pay3 (F := Ideal) x h wi0 wh0 bi0 bh0 (ix2 p q) = GruSpec.rgate x h wi wh bi bh p (col hh q) := by
  refine (pay3_apply x h wi0 wh0 bi0 bh0 p q).trans ?_
  unfold GruSpec.rgate
  rw [pay1_dense x wi bi 0 hh wi0 bi0 hwi0 hbi0 p q, pay2_dense h wh bh 0 hh wh0 bh0 hwh0 hbh0 p q]

/-- The update-gate payload over the update gate's tiles is the specification's update gate. -/
theorem zgate_tile (x h : Vec Ideal S128x1024 .f32) (wi wh : Vec Ideal S3072x1024 .f32) (bi bh : Vec Ideal S3072 .f32)
    (hh : Fin 2) (wi1 wh1 : Vec Ideal S512x1024 .f32) (bi1 bh1 : Vec Ideal S1x512 .f32)
    (hwi1 : ∀ (q : Fin 512) (k : Fin 1024), wi1 (ix2 q k) = wi (ix2 (tileRow 1 hh q) k))
    (hwh1 : ∀ (q : Fin 512) (k : Fin 1024), wh1 (ix2 q k) = wh (ix2 (tileRow 1 hh q) k))
    (hbi1 : ∀ q : Fin 512, bi1 (ix2 (0 : Fin 1) q) = bi (ix1 (tileRow 1 hh q)))
    (hbh1 : ∀ q : Fin 512, bh1 (ix2 (0 : Fin 1) q) = bh (ix1 (tileRow 1 hh q))) (p : Fin 128) (q : Fin 512) :
    k0_pay4 (F := Ideal) x h wi1 wh1 bi1 bh1 (ix2 p q) = GruSpec.zgate x h wi wh bi bh p (col hh q) := by
  refine (pay4_apply x h wi1 wh1 bi1 bh1 p q).trans ?_
  unfold GruSpec.zgate
  rw [pay1_dense x wi bi 1 hh wi1 bi1 hwi1 hbi1 p q, pay2_dense h wh bh 1 hh wh1 bh1 hwh1 hbh1 p q]

/-- The new-state payload, fed the two gate payloads and the state's column slice, is the specification's new state
    at the slice's hidden position. -/
theorem cell_h1p (x h : Vec Ideal S128x1024 .f32) (wi wh : Vec Ideal S3072x1024 .f32) (bi bh : Vec Ideal S3072 .f32)
    (hh : Fin 2) (wi0 wi1 wi2 wh0 wh1 wh2 : Vec Ideal S512x1024 .f32) (bi0 bi1 bi2 bh0 bh1 bh2 : Vec Ideal S1x512 .f32)
    (hs : Vec Ideal S128x512 .f32)
    (hwi0 : ∀ (q : Fin 512) (k : Fin 1024), wi0 (ix2 q k) = wi (ix2 (tileRow 0 hh q) k))
    (hwi1 : ∀ (q : Fin 512) (k : Fin 1024), wi1 (ix2 q k) = wi (ix2 (tileRow 1 hh q) k))
    (hwi2 : ∀ (q : Fin 512) (k : Fin 1024), wi2 (ix2 q k) = wi (ix2 (tileRow 2 hh q) k))
    (hwh0 : ∀ (q : Fin 512) (k : Fin 1024), wh0 (ix2 q k) = wh (ix2 (tileRow 0 hh q) k))
    (hwh1 : ∀ (q : Fin 512) (k : Fin 1024), wh1 (ix2 q k) = wh (ix2 (tileRow 1 hh q) k))
    (hwh2 : ∀ (q : Fin 512) (k : Fin 1024), wh2 (ix2 q k) = wh (ix2 (tileRow 2 hh q) k))
    (hbi0 : ∀ q : Fin 512, bi0 (ix2 (0 : Fin 1) q) = bi (ix1 (tileRow 0 hh q)))
    (hbi1 : ∀ q : Fin 512, bi1 (ix2 (0 : Fin 1) q) = bi (ix1 (tileRow 1 hh q)))
    (hbi2 : ∀ q : Fin 512, bi2 (ix2 (0 : Fin 1) q) = bi (ix1 (tileRow 2 hh q)))
    (hbh0 : ∀ q : Fin 512, bh0 (ix2 (0 : Fin 1) q) = bh (ix1 (tileRow 0 hh q)))
    (hbh1 : ∀ q : Fin 512, bh1 (ix2 (0 : Fin 1) q) = bh (ix1 (tileRow 1 hh q)))
    (hbh2 : ∀ q : Fin 512, bh2 (ix2 (0 : Fin 1) q) = bh (ix1 (tileRow 2 hh q)))
    (hhs : ∀ (p : Fin 128) (q : Fin 512), hs (ix2 p q) = h (ix2 p (col hh q))) (p : Fin 128) (q : Fin 512) :
    k0_pay5 (F := Ideal) x h wi2 wh2 bi2 bh2 (k0_pay3 (F := Ideal) x h wi0 wh0 bi0 bh0)
        (k0_pay4 (F := Ideal) x h wi1 wh1 bi1 bh1) hs (ix2 p q)
      = GruSpec.hnew x h wi wh bi bh p (col hh q) := by
  refine (pay5_apply x h wi2 wh2 bi2 bh2 _ _ hs p q).trans ?_
  unfold GruSpec.hnew GruSpec.ngate
  rw [zgate_tile x h wi wh bi bh hh wi1 wh1 bi1 bh1 hwi1 hwh1 hbi1 hbh1 p q,
    rgate_tile x h wi wh bi bh hh wi0 wh0 bi0 bh0 hwi0 hwh0 hbi0 hbh0 p q,
    pay1_dense x wi bi 2 hh wi2 bi2 hwi2 hbi2 p q, pay2_dense h wh bh 2 hh wh2 bh2 hwh2 hbh2 p q, hhs p q]

/-- The payload the head reads, fed also the input's column slice, is the specification's residual array at the
    slice's hidden position. -/
theorem cell_res (x h : Vec Ideal S128x1024 .f32) (wi wh : Vec Ideal S3072x1024 .f32) (bi bh : Vec Ideal S3072 .f32)
    (hh : Fin 2) (wi0 wi1 wi2 wh0 wh1 wh2 : Vec Ideal S512x1024 .f32) (bi0 bi1 bi2 bh0 bh1 bh2 : Vec Ideal S1x512 .f32)
    (hs xs : Vec Ideal S128x512 .f32)
    (hwi0 : ∀ (q : Fin 512) (k : Fin 1024), wi0 (ix2 q k) = wi (ix2 (tileRow 0 hh q) k))
    (hwi1 : ∀ (q : Fin 512) (k : Fin 1024), wi1 (ix2 q k) = wi (ix2 (tileRow 1 hh q) k))
    (hwi2 : ∀ (q : Fin 512) (k : Fin 1024), wi2 (ix2 q k) = wi (ix2 (tileRow 2 hh q) k))
    (hwh0 : ∀ (q : Fin 512) (k : Fin 1024), wh0 (ix2 q k) = wh (ix2 (tileRow 0 hh q) k))
    (hwh1 : ∀ (q : Fin 512) (k : Fin 1024), wh1 (ix2 q k) = wh (ix2 (tileRow 1 hh q) k))
    (hwh2 : ∀ (q : Fin 512) (k : Fin 1024), wh2 (ix2 q k) = wh (ix2 (tileRow 2 hh q) k))
    (hbi0 : ∀ q : Fin 512, bi0 (ix2 (0 : Fin 1) q) = bi (ix1 (tileRow 0 hh q)))
    (hbi1 : ∀ q : Fin 512, bi1 (ix2 (0 : Fin 1) q) = bi (ix1 (tileRow 1 hh q)))
    (hbi2 : ∀ q : Fin 512, bi2 (ix2 (0 : Fin 1) q) = bi (ix1 (tileRow 2 hh q)))
    (hbh0 : ∀ q : Fin 512, bh0 (ix2 (0 : Fin 1) q) = bh (ix1 (tileRow 0 hh q)))
    (hbh1 : ∀ q : Fin 512, bh1 (ix2 (0 : Fin 1) q) = bh (ix1 (tileRow 1 hh q)))
    (hbh2 : ∀ q : Fin 512, bh2 (ix2 (0 : Fin 1) q) = bh (ix1 (tileRow 2 hh q)))
    (hhs : ∀ (p : Fin 128) (q : Fin 512), hs (ix2 p q) = h (ix2 p (col hh q)))
    (hxs : ∀ (p : Fin 128) (q : Fin 512), xs (ix2 p q) = x (ix2 p (col hh q))) (p : Fin 128) (q : Fin 512) :
    k0_pay6 (F := Ideal) x h wi2 wh2 bi2 bh2 (k0_pay3 (F := Ideal) x h wi0 wh0 bi0 bh0)
        (k0_pay4 (F := Ideal) x h wi1 wh1 bi1 bh1) hs xs (ix2 p q)
      = GruSpec.RES x h wi wh bi bh (ix2 p (col hh q)) := by
  refine (pay6_apply x h wi2 wh2 bi2 bh2 _ _ hs xs p q).trans ?_
  show _ = GruSpec.hnew x h wi wh bi bh p (col hh q) + x (ix2 p (col hh q))
  exact congrArg₂ (· + ·)
    (cell_h1p x h wi wh bi bh hh wi0 wi1 wi2 wh0 wh1 wh2 bi0 bi1 bi2 bh0 bh1 bh2 hs
      hwi0 hwi1 hwi2 hwh0 hwh1 hwh2 hbi0 hbi1 hbi2 hbh0 hbh1 hbh2 hhs p q) (hxs p q)

end Cert.KernelIdeal.PayValue

end
-- ==== Proof.CellValue.lean ====
/-
  The recurrent cell's region, from blocks to arrays, on the extended reals.

  The grid has six points, `t = 3 * half + gate`.  Each window's block index is decided once over the six points; from
  it, every input block read at an index is the window's array read at literal coordinates: the input and the state
  are whole at every point, a weight tile's row `q` is row `(gate * 2 + half) * 512 + q` of the stacked weights, a bias
  tile's entry `q` is entry `(gate * 2 + half) * 512 + q` of the bias row.  What a third point (`gate = 2`) writes back
  is then the new-state payload over the tiles of its half's three points, which is the specification's new hidden
  state at columns `half * 512 + q`: the block of the specification's array at that point.  The two third points'
  blocks cover all 1024 columns, so each output array ends at the specification's array.
-/
import proofs.«128325_j22093311770918_2_alg».proof.Proof.CellRegion
import proofs.«128325_j22093311770918_2_alg».proof.Proof.PayValue
import proofs.«128325_j22093311770918_2_alg».proof.Proof.GruSpec
import Idealize.ShloMosaic.Lib.Pipeline.Value
import Idealize.ShloMosaic.Lib.ValueIdx
import Idealize.ShloMosaic.Lib.ValueLayout

set_option maxRecDepth 16384

noncomputable section

namespace Cert.KernelIdeal.CellValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.PayValue (col tileRow)

/-! ## The index maps, decided once over the six grid points -/

/-- The block index of every window at every point: the two whole-array inputs stay at block (0, 0); a weight tile is
    block `gate * 2 + half` along the rows, a bias tile the same along the columns; an output block is the half's. -/
theorem idx_w : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = (t.val % 3) * 2 + t.val / 3 ∧ win0_2.index t (1 : Fin 2) = 0
    ∧ win0_3.index t (0 : Fin 2) = (t.val % 3) * 2 + t.val / 3 ∧ win0_3.index t (1 : Fin 2) = 0
    ∧ win0_4.index t (0 : Fin 2) = 0 ∧ win0_4.index t (1 : Fin 2) = (t.val % 3) * 2 + t.val / 3
    ∧ win0_5.index t (0 : Fin 2) = 0 ∧ win0_5.index t (1 : Fin 2) = (t.val % 3) * 2 + t.val / 3
    ∧ win0_6.index t (0 : Fin 2) = 0 ∧ win0_6.index t (1 : Fin 2) = t.val / 3
    ∧ win0_7.index t (0 : Fin 2) = 0 ∧ win0_7.index t (1 : Fin 2) = t.val / 3 :=
  (by decide +kernel : ∀ t : Fin grid0.N, _)

/-- At a third point the column slice starts at column `half * 512` of row 0. -/
theorem off_w : ∀ t : Fin cfg0.N, t.val % 3 = 2 → k0_off1 (grid0.coords t) (0 : Fin 2) = 0 ∧ k0_off1 (grid0.coords t) (1 : Fin 2) = (t.val / 3) * 512 :=
  (by decide +kernel : ∀ t : Fin grid0.N, _)

section Region
variable (V : (c : Dev nD) → (b : Ref sig .tc) → Buf (Elt Ideal) ((c : Thread nD τ).loc b)) (c : Dev nD)

/-! ## Each input block, read at an index of literal coordinates -/

/-- The input's block is the whole input at every point. -/
theorem blk0_eq (t : Fin cfg0.N) : (Hand.iblk0 V c 0 t : Vec Ideal S128x1024 .f32) = (V c main_arg0 : Vec Ideal S128x1024 .f32) := by
  funext y
  unfold Hand.iblk0
  rw [View.read_apply]
  show V c main_arg0 (((cfg0.win 0).blk t).view.emb y) = V c main_arg0 y
  refine congrArg (V c main_arg0) ?_
  obtain ⟨e0, e1, -⟩ := idx_w t
  funext a; apply Fin.ext
  match a with
  | ⟨0, _⟩ => show win0_0.index t (0 : Fin 2) * 128 + 1 * (y 0).val = (y 0).val; rw [e0]; omega
  | ⟨1, _⟩ => show win0_0.index t (1 : Fin 2) * 1024 + 1 * (y 1).val = (y 1).val; rw [e1]; omega

/-- The state's block is the whole state at every point. -/
theorem blk1_eq (t : Fin cfg0.N) : (Hand.iblk0 V c 1 t : Vec Ideal S128x1024 .f32) = (V c main_arg1 : Vec Ideal S128x1024 .f32) := by
  funext y
  unfold Hand.iblk0
  rw [View.read_apply]
  show V c main_arg1 (((cfg0.win 1).blk t).view.emb y) = V c main_arg1 y
  refine congrArg (V c main_arg1) ?_
  obtain ⟨-, -, e0, e1, -⟩ := idx_w t
  funext a; apply Fin.ext
  match a with
  | ⟨0, _⟩ => show win0_1.index t (0 : Fin 2) * 128 + 1 * (y 0).val = (y 0).val; rw [e0]; omega
  | ⟨1, _⟩ => show win0_1.index t (1 : Fin 2) * 1024 + 1 * (y 1).val = (y 1).val; rw [e1]; omega

/-- Row `q` of the input-side weight tile at the point of gate `g` and half `hh` is row `tileRow g hh q` of the stacked weights. -/
theorem blk2_apply (t : Fin cfg0.N) (g : Fin 3) (hh : Fin 2) (hg : t.val % 3 = g.val) (hhh : t.val / 3 = hh.val)
    (q : Fin 512) (k : Fin 1024) :
    (Hand.iblk0 V c 2 t : Vec Ideal S512x1024 .f32) (ix2 q k) = (V c main_arg2 : Vec Ideal S3072x1024 .f32) (ix2 (tileRow g hh q) k) := by
  unfold Hand.iblk0
  rw [View.read_apply]
  show V c main_arg2 (((cfg0.win 2).blk t).view.emb (ix2 q k)) = V c main_arg2 (ix2 (tileRow g hh q) k)
  refine congrArg (V c main_arg2) ?_
  obtain ⟨-, -, -, -, e0, e1, -⟩ := idx_w t
  funext a; apply Fin.ext
  match a with
  | ⟨0, _⟩ => show win0_2.index t (0 : Fin 2) * 512 + 1 * q.val = (g.val * 2 + hh.val) * 512 + q.val; rw [e0, hg, hhh]; omega
  | ⟨1, _⟩ => show win0_2.index t (1 : Fin 2) * 1024 + 1 * k.val = k.val; rw [e1]; omega

/-- The same for the state-side weight tile. -/
theorem blk3_apply (t : Fin cfg0.N) (g : Fin 3) (hh : Fin 2) (hg : t.val % 3 = g.val) (hhh : t.val / 3 = hh.val)
    (q : Fin 512) (k : Fin 1024) :
    (Hand.iblk0 V c 3 t : Vec Ideal S512x1024 .f32) (ix2 q k) = (V c main_arg3 : Vec Ideal S3072x1024 .f32) (ix2 (tileRow g hh q) k) := by
  unfold Hand.iblk0
  rw [View.read_apply]
  show V c main_arg3 (((cfg0.win 3).blk t).view.emb (ix2 q k)) = V c main_arg3 (ix2 (tileRow g hh q) k)
  refine congrArg (V c main_arg3) ?_
  obtain ⟨-, -, -, -, -, -, e0, e1, -⟩ := idx_w t
  funext a; apply Fin.ext
  match a with
  | ⟨0, _⟩ => show win0_3.index t (0 : Fin 2) * 512 + 1 * q.val = (g.val * 2 + hh.val) * 512 + q.val; rw [e0, hg, hhh]; omega
  | ⟨1, _⟩ => show win0_3.index t (1 : Fin 2) * 1024 + 1 * k.val = k.val; rw [e1]; omega

/-- Entry `q` of the input-side bias tile is entry `tileRow g hh q` of the bias row. -/
theorem blk4_apply (t : Fin cfg0.N) (g : Fin 3) (hh : Fin 2) (hg : t.val % 3 = g.val) (hhh : t.val / 3 = hh.val)
    (q : Fin 512) :
    (Hand.iblk0 V c 4 t : Vec Ideal S1x512 .f32) (ix2 (0 : Fin 1) q) = (V c main_v0 : Vec Ideal S1x3072 .f32) (ix2 (0 : Fin 1) (tileRow g hh q)) := by
  unfold Hand.iblk0
  rw [View.read_apply]
  show V c main_v0 (((cfg0.win 4).blk t).view.emb (ix2 (0 : Fin 1) q)) = V c main_v0 (ix2 (0 : Fin 1) (tileRow g hh q))
  refine congrArg (V c main_v0) ?_
  obtain ⟨-, -, -, -, -, -, -, -, e0, e1, -⟩ := idx_w t
  funext a; apply Fin.ext
  match a with
  | ⟨0, _⟩ => show win0_4.index t (0 : Fin 2) * 1 + 1 * 0 = 0; rw [e0]
  | ⟨1, _⟩ => show win0_4.index t (1 : Fin 2) * 512 + 1 * q.val = (g.val * 2 + hh.val) * 512 + q.val; rw [e1, hg, hhh]; omega

/-- The same for the state-side bias tile. -/
theorem blk5_apply (t : Fin cfg0.N) (g : Fin 3) (hh : Fin 2) (hg : t.val % 3 = g.val) (hhh : t.val / 3 = hh.val)
    (q : Fin 512) :
    (Hand.iblk0 V c 5 t : Vec Ideal S1x512 .f32) (ix2 (0 : Fin 1) q) = (V c main_v1 : Vec Ideal S1x3072 .f32) (ix2 (0 : Fin 1) (tileRow g hh q)) := by
  unfold Hand.iblk0
  rw [View.read_apply]
  show V c main_v1 (((cfg0.win 5).blk t).view.emb (ix2 (0 : Fin 1) q)) = V c main_v1 (ix2 (0 : Fin 1) (tileRow g hh q))
  refine congrArg (V c main_v1) ?_
  obtain ⟨-, -, -, -, -, -, -, -, -, -, e0, e1, -⟩ := idx_w t
  funext a; apply Fin.ext
  match a with
  | ⟨0, _⟩ => show win0_5.index t (0 : Fin 2) * 1 + 1 * 0 = 0; rw [e0]
  | ⟨1, _⟩ => show win0_5.index t (1 : Fin 2) * 512 + 1 * q.val = (g.val * 2 + hh.val) * 512 + q.val; rw [e1, hg, hhh]; omega

end Region

/-! ## What the body leaves, as the payloads of the blocks -/

theorem hz : (![0, 0] : Fin 2 → Nat) = fun _ => 0 := funext fun a => by fin_cases a <;> rfl

theorem outR_eq (x0 x1 : Vec Ideal S128x1024 .f32) (x2 x3 : Vec Ideal S512x1024 .f32) (x4 x5 : Vec Ideal S1x512 .f32) :
    Hand.outR x0 x1 x2 x3 x4 x5 = k0_pay3 (F := Ideal) x0 x1 x2 x3 x4 x5 := by
  unfold Hand.outR
  rw [View.canon_unit_zero hz]
  simp only [View.ld_unit_zero (S := S128x1024) hz, View.ld_unit_zero (S := S512x1024) hz, View.ld_unit_zero (S := S1x512) hz]

theorem outZ_eq (x0 x1 : Vec Ideal S128x1024 .f32) (x2 x3 : Vec Ideal S512x1024 .f32) (x4 x5 : Vec Ideal S1x512 .f32) :
    Hand.outZ x0 x1 x2 x3 x4 x5 = k0_pay4 (F := Ideal) x0 x1 x2 x3 x4 x5 := by
  unfold Hand.outZ
  rw [View.canon_unit_zero hz]
  simp only [View.ld_unit_zero (S := S128x1024) hz, View.ld_unit_zero (S := S512x1024) hz, View.ld_unit_zero (S := S1x512) hz]

theorem outH_eq (i : grid0.Coords) (hN : Hand.condN i) (x0 x1 : Vec Ideal S128x1024 .f32) (x2 x3 : Vec Ideal S512x1024 .f32) (x4 x5 : Vec Ideal S1x512 .f32)
    (s0 s1 : Vec Ideal S128x512 .f32) :
    Hand.outH i hN x0 x1 x2 x3 x4 x5 s0 s1 = k0_pay5 (F := Ideal) x0 x1 x2 x3 x4 x5 s0 s1 (View.ld x1 (Hand.rS i hN)) := by
  unfold Hand.outH
  rw [View.canon_unit_zero hz]
  simp only [View.ld_unit_zero (S := S128x1024) hz, View.ld_unit_zero (S := S512x1024) hz, View.ld_unit_zero (S := S1x512) hz, View.ld_unit_zero (S := S128x512) hz]

theorem outS_eq (i : grid0.Coords) (hN : Hand.condN i) (x0 x1 : Vec Ideal S128x1024 .f32) (x2 x3 : Vec Ideal S512x1024 .f32) (x4 x5 : Vec Ideal S1x512 .f32)
    (s0 s1 : Vec Ideal S128x512 .f32) :
    Hand.outS i hN x0 x1 x2 x3 x4 x5 s0 s1 = k0_pay6 (F := Ideal) x0 x1 x2 x3 x4 x5 s0 s1 (View.ld x1 (Hand.rS i hN)) (View.ld x0 (Hand.rS i hN)) := by
  unfold Hand.outS
  rw [View.canon_unit_zero hz]
  simp only [View.ld_unit_zero (S := S128x1024) hz, View.ld_unit_zero (S := S512x1024) hz, View.ld_unit_zero (S := S1x512) hz, View.ld_unit_zero (S := S128x512) hz]

/-- The column slice of a [128, 1024] array at a third point of half `hh`, at `(p, q)`, is the array at `(p, col hh q)`. -/
theorem slice_apply (i : grid0.Coords) (hN : Hand.condN i) (hh : Fin 2) (h0 : k0_off1 i (0 : Fin 2) = 0) (h1 : k0_off1 i (1 : Fin 2) = hh.val * 512)
    (X : Vec Ideal S128x1024 .f32) (p : Fin 128) (q : Fin 512) :
    View.ld X (Hand.rS i hN) (ix2 p q) = X (ix2 p (col hh q)) := by
  show X ((Hand.rS i hN).idx (ix2 p q)) = X (ix2 p (col hh q))
  refine congrArg X ?_
  funext a; apply Fin.ext
  match a with
  | ⟨0, _⟩ => show k0_off1 i (0 : Fin 2) + 1 * p.val = p.val; rw [h0]; omega
  | ⟨1, _⟩ => show k0_off1 i (1 : Fin 2) + 1 * q.val = hh.val * 512 + q.val; rw [h1]; omega

/-! ## A third point's two blocks, over the blocks of the three points of its half -/

/-- The new state's block: fed the reset gate of the half's first point and the update gate of its second, it is the
    specification's new state at the half's hidden positions. -/
theorem tile_h1p (x h : Vec Ideal S128x1024 .f32) (wi wh : Vec Ideal S3072x1024 .f32) (bi bh : Vec Ideal S3072 .f32)
    (hh : Fin 2) (i : grid0.Coords) (hN : Hand.condN i) (h0 : k0_off1 i (0 : Fin 2) = 0) (h1 : k0_off1 i (1 : Fin 2) = hh.val * 512)
    (xa xb xc ha hb hc : Vec Ideal S128x1024 .f32)
    (wi0 wi1 wi2 wh0 wh1 wh2 : Vec Ideal S512x1024 .f32) (bi0 bi1 bi2 bh0 bh1 bh2 : Vec Ideal S1x512 .f32)
    (exa : xa = x) (exb : xb = x) (exc : xc = x) (eha : ha = h) (ehb : hb = h) (ehc : hc = h)
    (hwi0 : ∀ (q : Fin 512) (k : Fin 1024), wi0 (ix2 q k) = wi (ix2 (tileRow 0 hh q) k))
    (hwi1 : ∀ (q : Fin 512) (k : Fin 1024), wi1 (ix2 q k) = wi (ix2 (tileRow 1 hh q) k))
    (hwi2 : ∀ (q : Fin 512) (k : Fin 1024), wi2 (ix2 q k) = wi (ix2 (tileRow 2 hh q) k))
    (hwh0 : ∀ (q : Fin 512) (k : Fin 1024), wh0 (ix2 q k) = wh (ix2 (tileRow 0 hh q) k))
    (hwh1 : ∀ (q : Fin 512) (k : Fin 1024), wh1 (ix2 q k) = wh (ix2 (tileRow 1 hh q) k))
    (hwh2 : ∀ (q : Fin 512) (k : Fin 1024), wh2 (ix2 q k) = wh (ix2 (tileRow 2 hh q) k))
    (hbi0 : ∀ q : Fin 512, bi0 (ix2 (0 : Fin 1) q) = bi (ix1 (tileRow 0 hh q)))
    (hbi1 : ∀ q : Fin 512, bi1 (ix2 (0 : Fin 1) q) = bi (ix1 (tileRow 1 hh q)))
    (hbi2 : ∀ q : Fin 512, bi2 (ix2 (0 : Fin 1) q) = bi (ix1 (tileRow 2 hh q)))
    (hbh0 : ∀ q : Fin 512, bh0 (ix2 (0 : Fin 1) q) = bh (ix1 (tileRow 0 hh q)))
    (hbh1 : ∀ q : Fin 512, bh1 (ix2 (0 : Fin 1) q) = bh (ix1 (tileRow 1 hh q)))
    (hbh2 : ∀ q : Fin 512, bh2 (ix2 (0 : Fin 1) q) = bh (ix1 (tileRow 2 hh q)))
    (y : S128x512.Idx) :
    Hand.outH i hN xc hc wi2 wh2 bi2 bh2 (Hand.outR xa ha wi0 wh0 bi0 bh0) (Hand.outZ xb hb wi1 wh1 bi1 bh1) y
      = GruSpec.hnew x h wi wh bi bh (y 0) (col hh (y 1)) := by
  subst exa exb exc eha ehb ehc
  rw [outH_eq, outR_eq, outZ_eq]
  obtain ⟨p, q, rfl⟩ : ∃ p q, y = ix2 p q := ⟨y 0, y 1, eq_ix2 y⟩
  exact PayValue.cell_h1p _ _ wi wh bi bh hh wi0 wi1 wi2 wh0 wh1 wh2 bi0 bi1 bi2 bh0 bh1 bh2 _
    hwi0 hwi1 hwi2 hwh0 hwh1 hwh2 hbi0 hbi1 hbi2 hbh0 hbh1 hbh2 (fun p q => slice_apply i hN hh h0 h1 _ p q) p q

/-- The block of the new state plus the input, likewise. -/
theorem tile_res (x h : Vec Ideal S128x1024 .f32) (wi wh : Vec Ideal S3072x1024 .f32) (bi bh : Vec Ideal S3072 .f32)
    (hh : Fin 2) (i : grid0.Coords) (hN : Hand.condN i) (h0 : k0_off1 i (0 : Fin 2) = 0) (h1 : k0_off1 i (1 : Fin 2) = hh.val * 512)
    (xa xb xc ha hb hc : Vec Ideal S128x1024 .f32)
    (wi0 wi1 wi2 wh0 wh1 wh2 : Vec Ideal S512x1024 .f32) (bi0 bi1 bi2 bh0 bh1 bh2 : Vec Ideal S1x512 .f32)
    (exa : xa = x) (exb : xb = x) (exc : xc = x) (eha : ha = h) (ehb : hb = h) (ehc : hc = h)
    (hwi0 : ∀ (q : Fin 512) (k : Fin 1024), wi0 (ix2 q k) = wi (ix2 (tileRow 0 hh q) k))
    (hwi1 : ∀ (q : Fin 512) (k : Fin 1024), wi1 (ix2 q k) = wi (ix2 (tileRow 1 hh q) k))
    (hwi2 : ∀ (q : Fin 512) (k : Fin 1024), wi2 (ix2 q k) = wi (ix2 (tileRow 2 hh q) k))
    (hwh0 : ∀ (q : Fin 512) (k : Fin 1024), wh0 (ix2 q k) = wh (ix2 (tileRow 0 hh q) k))
    (hwh1 : ∀ (q : Fin 512) (k : Fin 1024), wh1 (ix2 q k) = wh (ix2 (tileRow 1 hh q) k))
    (hwh2 : ∀ (q : Fin 512) (k : Fin 1024), wh2 (ix2 q k) = wh (ix2 (tileRow 2 hh q) k))
    (hbi0 : ∀ q : Fin 512, bi0 (ix2 (0 : Fin 1) q) = bi (ix1 (tileRow 0 hh q)))
    (hbi1 : ∀ q : Fin 512, bi1 (ix2 (0 : Fin 1) q) = bi (ix1 (tileRow 1 hh q)))
    (hbi2 : ∀ q : Fin 512, bi2 (ix2 (0 : Fin 1) q) = bi (ix1 (tileRow 2 hh q)))
    (hbh0 : ∀ q : Fin 512, bh0 (ix2 (0 : Fin 1) q) = bh (ix1 (tileRow 0 hh q)))
    (hbh1 : ∀ q : Fin 512, bh1 (ix2 (0 : Fin 1) q) = bh (ix1 (tileRow 1 hh q)))
    (hbh2 : ∀ q : Fin 512, bh2 (ix2 (0 : Fin 1) q) = bh (ix1 (tileRow 2 hh q)))
    (y : S128x512.Idx) :
    Hand.outS i hN xc hc wi2 wh2 bi2 bh2 (Hand.outR xa ha wi0 wh0 bi0 bh0) (Hand.outZ xb hb wi1 wh1 bi1 bh1) y
      = GruSpec.RES x h wi wh bi bh (ix2 (y 0) (col hh (y 1))) := by
  subst exa exb exc eha ehb ehc
  rw [outS_eq, outR_eq, outZ_eq]
  obtain ⟨p, q, rfl⟩ : ∃ p q, y = ix2 p q := ⟨y 0, y 1, eq_ix2 y⟩
  exact PayValue.cell_res _ _ wi wh bi bh hh wi0 wi1 wi2 wh0 wh1 wh2 bi0 bi1 bi2 bh0 bh1 bh2 _ _
    hwi0 hwi1 hwi2 hwh0 hwh1 hwh2 hbi0 hbi1 hbi2 hbh0 hbh1 hbh2 (fun p q => slice_apply i hN hh h0 h1 _ p q)
    (fun p q => slice_apply i hN hh h0 h1 _ p q) p q

/-! ## The output blocks of the two third points cover the array -/

/-- An index is in a point's output block iff each coordinate is in the block's range on its axis. -/
theorem mem_blk6 (t : Fin cfg0.N) (i : S128x1024.Idx) :
    i ∈ ((cfg0.win 6).blk t).view.set ↔ ∀ a : Fin 2, win0_6.index t a * S128x512.size a ≤ (i a).val ∧ (i a).val < win0_6.index t a * S128x512.size a + S128x512.size a := by
  show i ∈ ((View.whole main_v2_0).slice (win0_6.rect t)).set ↔ _
  rw [View.set_slice_whole, Rect.mem_set_unit]
  exact Iff.rfl

theorem mem_blk7 (t : Fin cfg0.N) (i : S128x1024.Idx) :
    i ∈ ((cfg0.win 7).blk t).view.set ↔ ∀ a : Fin 2, win0_7.index t a * S128x512.size a ≤ (i a).val ∧ (i a).val < win0_7.index t a * S128x512.size a + S128x512.size a := by
  show i ∈ ((View.whole main_v2_1).slice (win0_7.rect t)).set ↔ _
  rw [View.set_slice_whole, Rect.mem_set_unit]
  exact Iff.rfl

/-- Column `j` lies in the block written back at the third point of half `j / 512`. -/
theorem cover6 (i : S128x1024.Idx) : ∃ t : Fin cfg0.N, (cfg0.win 6).flush t = true ∧ i ∈ ((cfg0.win 6).blk t).view.set := by
  have hi0 : (i 0).val < 128 := (i 0).isLt
  have hi1 : (i 1).val < 1024 := (i 1).isLt
  have hN : cfg0.N = 6 := N_0
  have hlt : 3 * ((i 1).val / 512) + 2 < cfg0.N := by rw [hN]; omega
  refine ⟨⟨3 * ((i 1).val / 512) + 2, hlt⟩, (flush0_6 _).mpr (by show (3 * ((i 1).val / 512) + 2) % 3 = 2; omega), ?_⟩
  rw [mem_blk6]
  obtain ⟨-, -, -, -, -, -, -, -, -, -, -, -, e0, e1, -⟩ := idx_w ⟨3 * ((i 1).val / 512) + 2, hlt⟩
  intro a
  match a with
  | ⟨0, _⟩ =>
    show win0_6.index ⟨3 * ((i 1).val / 512) + 2, hlt⟩ (0 : Fin 2) * 128 ≤ (i 0).val ∧ (i 0).val < win0_6.index ⟨3 * ((i 1).val / 512) + 2, hlt⟩ (0 : Fin 2) * 128 + 128
    rw [e0]; omega
  | ⟨1, _⟩ =>
    show win0_6.index ⟨3 * ((i 1).val / 512) + 2, hlt⟩ (1 : Fin 2) * 512 ≤ (i 1).val ∧ (i 1).val < win0_6.index ⟨3 * ((i 1).val / 512) + 2, hlt⟩ (1 : Fin 2) * 512 + 512
    rw [e1]; show (3 * ((i 1).val / 512) + 2) / 3 * 512 ≤ (i 1).val ∧ (i 1).val < (3 * ((i 1).val / 512) + 2) / 3 * 512 + 512; omega

theorem cover7 (i : S128x1024.Idx) : ∃ t : Fin cfg0.N, (cfg0.win 7).flush t = true ∧ i ∈ ((cfg0.win 7).blk t).view.set := by
  have hi0 : (i 0).val < 128 := (i 0).isLt
  have hi1 : (i 1).val < 1024 := (i 1).isLt
  have hN : cfg0.N = 6 := N_0
  have hlt : 3 * ((i 1).val / 512) + 2 < cfg0.N := by rw [hN]; omega
  refine ⟨⟨3 * ((i 1).val / 512) + 2, hlt⟩, (flush0_7 _).mpr (by show (3 * ((i 1).val / 512) + 2) % 3 = 2; omega), ?_⟩
  rw [mem_blk7]
  obtain ⟨-, -, -, -, -, -, -, -, -, -, -, -, -, -, e0, e1⟩ := idx_w ⟨3 * ((i 1).val / 512) + 2, hlt⟩
  intro a
  match a with
  | ⟨0, _⟩ =>
    show win0_7.index ⟨3 * ((i 1).val / 512) + 2, hlt⟩ (0 : Fin 2) * 128 ≤ (i 0).val ∧ (i 0).val < win0_7.index ⟨3 * ((i 1).val / 512) + 2, hlt⟩ (0 : Fin 2) * 128 + 128
    rw [e0]; omega
  | ⟨1, _⟩ =>
    show win0_7.index ⟨3 * ((i 1).val / 512) + 2, hlt⟩ (1 : Fin 2) * 512 ≤ (i 1).val ∧ (i 1).val < win0_7.index ⟨3 * ((i 1).val / 512) + 2, hlt⟩ (1 : Fin 2) * 512 + 512
    rw [e1]; show (3 * ((i 1).val / 512) + 2) / 3 * 512 ≤ (i 1).val ∧ (i 1).val < (3 * ((i 1).val / 512) + 2) / 3 * 512 + 512; omega

section Region2
variable (V : (c : Dev nD) → (b : Ref sig .tc) → Buf (Elt Ideal) ((c : Thread nD τ).loc b)) (c : Dev nD)
variable (bi bh : Vec Ideal S3072 .f32)
  (hbi : ∀ j : Fin 3072, (V c main_v0 : Vec Ideal S1x3072 .f32) (ix2 (0 : Fin 1) j) = bi (ix1 j))
  (hbh : ∀ j : Fin 3072, (V c main_v1 : Vec Ideal S1x3072 .f32) (ix2 (0 : Fin 1) j) = bh (ix1 j))

/-! ## What a third point writes back is its block of the specification's array -/

include hbi hbh in
theorem flushed6_eq (t : Fin cfg0.N) (h2 : t.val % 3 = 2) :
    (Hand.dat0 V c).flushed 6 t = ((cfg0.win 6).blk t).view.read (Elt Ideal)
      (GruSpec.H1P (V c main_arg0) (V c main_arg1) (V c main_arg2) (V c main_arg3) bi bh) := by
  have hN6 : t.val < 6 := lt_of_lt_of_eq t.isLt N_0
  show (cfg0.win 6).cut (grid0.coords t) ((Hand.dat0 V c).after 6 t) = _
  rw [Hand.after0_6]; unfold Hand.Hv; rw [dif_pos ((Hand.hcondN t).mpr h2)]
  unfold Hand.Rv Hand.Zv
  funext y
  obtain ⟨o0, o1⟩ := off_w t h2
  obtain ⟨-, -, -, -, -, -, -, -, -, -, -, -, e0, e1, -⟩ := idx_w t
  have ha : (Hand.pt (t.val - 2)).val = t.val - 2 := by show (t.val - 2) % 6 = t.val - 2; omega
  have hb : (Hand.pt (t.val - 1)).val = t.val - 1 := by show (t.val - 1) % 6 = t.val - 1; omega
  refine (tile_h1p (V c main_arg0) (V c main_arg1) (V c main_arg2) (V c main_arg3) bi bh ⟨t.val / 3, by omega⟩ (grid0.coords t) _ o0 o1
    _ _ _ _ _ _ _ _ _ _ _ _ _ _ _ _ _ _
    (blk0_eq V c _) (blk0_eq V c _) (blk0_eq V c _) (blk1_eq V c _) (blk1_eq V c _) (blk1_eq V c _)
    (fun q k => blk2_apply V c _ 0 _ ?_ ?_ q k) (fun q k => blk2_apply V c _ 1 _ ?_ ?_ q k) (fun q k => blk2_apply V c _ 2 _ ?_ ?_ q k)
    (fun q k => blk3_apply V c _ 0 _ ?_ ?_ q k) (fun q k => blk3_apply V c _ 1 _ ?_ ?_ q k) (fun q k => blk3_apply V c _ 2 _ ?_ ?_ q k)
    (fun q => (blk4_apply V c _ 0 _ ?_ ?_ q).trans (hbi _)) (fun q => (blk4_apply V c _ 1 _ ?_ ?_ q).trans (hbi _)) (fun q => (blk4_apply V c _ 2 _ ?_ ?_ q).trans (hbi _))
    (fun q => (blk5_apply V c _ 0 _ ?_ ?_ q).trans (hbh _)) (fun q => (blk5_apply V c _ 1 _ ?_ ?_ q).trans (hbh _)) (fun q => (blk5_apply V c _ 2 _ ?_ ?_ q).trans (hbh _))
    ((cfg0.win 6).xinj (grid0.coords t) y)).trans ?_
  all_goals first
    | (show (Hand.pt (t.val - 2)).val % 3 = 0; omega)
    | (show (Hand.pt (t.val - 2)).val / 3 = t.val / 3; omega)
    | (show (Hand.pt (t.val - 1)).val % 3 = 1; omega)
    | (show (Hand.pt (t.val - 1)).val / 3 = t.val / 3; omega)
    | (show t.val % 3 = 2; exact h2)
    | (show t.val / 3 = t.val / 3; rfl)
    | skip
  rw [View.read_apply]
  show GruSpec.hnew _ _ _ _ _ _ _ _ = GruSpec.hnew _ _ _ _ _ _ ((((cfg0.win 6).blk t).view.emb y) 0) ((((cfg0.win 6).blk t).view.emb y) 1)
  refine congrArg₂ (GruSpec.hnew _ _ _ _ _ _) (Fin.ext ?_) (Fin.ext ?_)
  · show (y 0).val = win0_6.index t (0 : Fin 2) * 128 + 1 * (y 0).val; rw [e0]; omega
  · show t.val / 3 * 512 + (y 1).val = win0_6.index t (1 : Fin 2) * 512 + 1 * (y 1).val; rw [e1]; omega

include hbi hbh in
theorem flushed7_eq (t : Fin cfg0.N) (h2 : t.val % 3 = 2) :
    (Hand.dat0 V c).flushed 7 t = ((cfg0.win 7).blk t).view.read (Elt Ideal)
      (GruSpec.RES (V c main_arg0) (V c main_arg1) (V c main_arg2) (V c main_arg3) bi bh) := by
  have hN6 : t.val < 6 := lt_of_lt_of_eq t.isLt N_0
  show (cfg0.win 7).cut (grid0.coords t) ((Hand.dat0 V c).after 7 t) = _
  rw [Hand.after0_7]; unfold Hand.Sv; rw [dif_pos ((Hand.hcondN t).mpr h2)]
  unfold Hand.Rv Hand.Zv
  funext y
  obtain ⟨o0, o1⟩ := off_w t h2
  obtain ⟨-, -, -, -, -, -, -, -, -, -, -, -, -, -, e0, e1⟩ := idx_w t
  have ha : (Hand.pt (t.val - 2)).val = t.val - 2 := by show (t.val - 2) % 6 = t.val - 2; omega
  have hb : (Hand.pt (t.val - 1)).val = t.val - 1 := by show (t.val - 1) % 6 = t.val - 1; omega
  refine (tile_res (V c main_arg0) (V c main_arg1) (V c main_arg2) (V c main_arg3) bi bh ⟨t.val / 3, by omega⟩ (grid0.coords t) _ o0 o1
    _ _ _ _ _ _ _ _ _ _ _ _ _ _ _ _ _ _
    (blk0_eq V c _) (blk0_eq V c _) (blk0_eq V c _) (blk1_eq V c _) (blk1_eq V c _) (blk1_eq V c _)
    (fun q k => blk2_apply V c _ 0 _ ?_ ?_ q k) (fun q k => blk2_apply V c _ 1 _ ?_ ?_ q k) (fun q k => blk2_apply V c _ 2 _ ?_ ?_ q k)
    (fun q k => blk3_apply V c _ 0 _ ?_ ?_ q k) (fun q k => blk3_apply V c _ 1 _ ?_ ?_ q k) (fun q k => blk3_apply V c _ 2 _ ?_ ?_ q k)
    (fun q => (blk4_apply V c _ 0 _ ?_ ?_ q).trans (hbi _)) (fun q => (blk4_apply V c _ 1 _ ?_ ?_ q).trans (hbi _)) (fun q => (blk4_apply V c _ 2 _ ?_ ?_ q).trans (hbi _))
    (fun q => (blk5_apply V c _ 0 _ ?_ ?_ q).trans (hbh _)) (fun q => (blk5_apply V c _ 1 _ ?_ ?_ q).trans (hbh _)) (fun q => (blk5_apply V c _ 2 _ ?_ ?_ q).trans (hbh _))
    ((cfg0.win 7).xinj (grid0.coords t) y)).trans ?_
  all_goals first
    | (show (Hand.pt (t.val - 2)).val % 3 = 0; omega)
    | (show (Hand.pt (t.val - 2)).val / 3 = t.val / 3; omega)
    | (show (Hand.pt (t.val - 1)).val % 3 = 1; omega)
    | (show (Hand.pt (t.val - 1)).val / 3 = t.val / 3; omega)
    | (show t.val % 3 = 2; exact h2)
    | (show t.val / 3 = t.val / 3; rfl)
    | skip
  rw [View.read_apply]
  show GruSpec.RES _ _ _ _ _ _ _ = GruSpec.RES _ _ _ _ _ _ (((cfg0.win 7).blk t).view.emb y)
  refine congrArg (GruSpec.RES _ _ _ _ _ _) ?_
  funext a; apply Fin.ext
  match a with
  | ⟨0, _⟩ => show (y 0).val = win0_7.index t (0 : Fin 2) * 128 + 1 * (y 0).val; rw [e0]; omega
  | ⟨1, _⟩ => show t.val / 3 * 512 + (y 1).val = win0_7.index t (1 : Fin 2) * 512 + 1 * (y 1).val; rw [e1]; omega

/-! ## The two output arrays after the region -/

include hbi hbh in
/-- The first output array ends at the specification's new hidden state. -/
theorem final0_6 :
    (Hand.dat0 V c).arrAt 6 cfg0.N = GruSpec.H1P (V c main_arg0) (V c main_arg1) (V c main_arg2) (V c main_arg3) bi bh :=
  (Hand.dat0 V c).arrAt_eq_of_cover 6 (GruSpec.H1P (V c main_arg0) (V c main_arg1) (V c main_arg2) (V c main_arg3) bi bh)
    (fun t hf => flushed6_eq V c bi bh hbi hbh t ((flush0_6 t).mp hf)) cover6

include hbi hbh in
/-- The second output array ends at the new hidden state plus the input. -/
theorem final0_7 :
    (Hand.dat0 V c).arrAt 7 cfg0.N = GruSpec.RES (V c main_arg0) (V c main_arg1) (V c main_arg2) (V c main_arg3) bi bh :=
  (Hand.dat0 V c).arrAt_eq_of_cover 7 (GruSpec.RES (V c main_arg0) (V c main_arg1) (V c main_arg2) (V c main_arg3) bi bh)
    (fun t hf => flushed7_eq V c bi bh hbi hbh t ((flush0_7 t).mp hf)) cover7

end Region2

end Cert.KernelIdeal.CellValue

end
-- ==== Proof.KernelValue.lean ====
import proofs.«128325_j22093311770918_2_alg».proof.Proof.RunMain
import proofs.«128325_j22093311770918_2_alg».proof.Proof.PayValue
import proofs.«128325_j22093311770918_2_alg».proof.Proof.GruSpec
import proofs.«128325_j22093311770918_2_alg».proof.Proof.CellValue
import Idealize.ShloMosaic.Lib.ValueLayout
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo

/-! # The idealized kernel program's two results

The contents of the TensorCore's buffers were followed through @main's four items; here the last of them are read at
the two result arrays and identified with the specification's functions of the launch arguments. -/

variable (m : (ℓ : Loc nD τ sig) → Buf (Elt Ideal) ℓ) (ρ : Dev nD → PrngReg) (c : Dev nD)

/-! ## What the two regions find on entry -/

/-- The first two reshapes write no argument: the first region finds each as launched. -/
theorem V1_arg0 : V1 m ρ c main_arg0 = m ((c : Thread nD τ).loc main_arg0) :=
  (StableHlo.after_of_writes_sub hostOps0 _ hostOps0_writes (by decide)).trans rfl
theorem V1_arg1 : V1 m ρ c main_arg1 = m ((c : Thread nD τ).loc main_arg1) :=
  (StableHlo.after_of_writes_sub hostOps0 _ hostOps0_writes (by decide)).trans rfl
theorem V1_arg2 : V1 m ρ c main_arg2 = m ((c : Thread nD τ).loc main_arg2) :=
  (StableHlo.after_of_writes_sub hostOps0 _ hostOps0_writes (by decide)).trans rfl
theorem V1_arg3 : V1 m ρ c main_arg3 = m ((c : Thread nD τ).loc main_arg3) :=
  (StableHlo.after_of_writes_sub hostOps0 _ hostOps0_writes (by decide)).trans rfl

/-- The first reshape: the one-row array the first region reads its input biases from holds the bias vector. -/
theorem V1_v0 : (V1 m ρ c main_v0 : S1x3072.Idx → EReal)
    = shapeCast S1x3072 (m ((c : Thread nD τ).loc main_arg4) : S3072.Idx → EReal) shapeCasts_S3072_S1x3072 := by
  show StableHlo.after hostOps0 (fun b => m (c, b)) (Proc.devRef .tc main_v0) = _
  after_results
  rfl
theorem V1_v1 : (V1 m ρ c main_v1 : S1x3072.Idx → EReal)
    = shapeCast S1x3072 (m ((c : Thread nD τ).loc main_arg5) : S3072.Idx → EReal) shapeCasts_S3072_S1x3072 := by
  show StableHlo.after hostOps0 (fun b => m (c, b)) (Proc.devRef .tc main_v1) = _
  after_results
  rfl
theorem V1_v0_apply (j : Fin 3072) : (V1 m ρ c main_v0 : Vec Ideal S1x3072 .f32) (ix2 (0 : Fin 1) j)
    = (m ((c : Thread nD τ).loc main_arg4) : Vec Ideal S3072 .f32) (ix1 j) := by
  rw [V1_v0]; exact shapeCast_a_1a_apply _ _ 0 j
theorem V1_v1_apply (j : Fin 3072) : (V1 m ρ c main_v1 : Vec Ideal S1x3072 .f32) (ix2 (0 : Fin 1) j)
    = (m ((c : Thread nD τ).loc main_arg5) : Vec Ideal S3072 .f32) (ix1 j) := by
  rw [V1_v1]; exact shapeCast_a_1a_apply _ _ 0 j

/-- No item before the second region writes the head's weights or biases. -/
theorem W2_arg (b : Ref sig .tc) (h0 : ∀ w, Pipeline.arrRef spec0 w ≠ b) (hW : b ∉ hostOps0_W) :
    W2 m ρ c (Proc.devRef .tc b) = m ((c : Thread nD τ).loc b) :=
  (W2_of_ne m ρ c b h0).trans ((StableHlo.after_of_writes_sub hostOps0 _ hostOps0_writes hW).trans rfl)
theorem V3_arg6 : V3 m ρ c main_arg6 = m ((c : Thread nD τ).loc main_arg6) :=
  (StableHlo.after_of_writes_sub hostOps1 _ hostOps1_writes (by decide)).trans (W2_arg m ρ c main_arg6 (by decide) (by decide))
theorem V3_arg8 : V3 m ρ c main_arg8 = m ((c : Thread nD τ).loc main_arg8) :=
  (StableHlo.after_of_writes_sub hostOps1 _ hostOps1_writes (by decide)).trans (W2_arg m ρ c main_arg8 (by decide) (by decide))
/-- The later two reshapes: the head's one-row bias arrays hold the bias vectors. -/
theorem V3_v3 : (V3 m ρ c main_v3 : S1x1024.Idx → EReal)
    = shapeCast S1x1024 (W2 m ρ c (Proc.devRef .tc main_arg7) : S1024.Idx → EReal) shapeCasts_S1024_S1x1024 := by
  show StableHlo.after hostOps1 (W2 m ρ c) (Proc.devRef .tc main_v3) = _
  after_results
  rfl
theorem V3_v4 : (V3 m ρ c main_v4 : S1x256.Idx → EReal)
    = shapeCast S1x256 (W2 m ρ c (Proc.devRef .tc main_arg9) : S256.Idx → EReal) shapeCasts_S256_S1x256 := by
  show StableHlo.after hostOps1 (W2 m ρ c) (Proc.devRef .tc main_v4) = _
  after_results
  rfl
theorem V3_v3_apply (j : Fin 1024) : (V3 m ρ c main_v3 : Vec Ideal S1x1024 .f32) (ix2 (0 : Fin 1) j)
    = (m ((c : Thread nD τ).loc main_arg7) : Vec Ideal S1024 .f32) (ix1 j) := by
  rw [V3_v3, W2_arg m ρ c main_arg7 (by decide) (by decide)]; exact shapeCast_a_1a_apply _ _ 0 j
theorem V3_v4_apply (j : Fin 256) : (V3 m ρ c main_v4 : Vec Ideal S1x256 .f32) (ix2 (0 : Fin 1) j)
    = (m ((c : Thread nD τ).loc main_arg9) : Vec Ideal S256 .f32) (ix1 j) := by
  rw [V3_v4, W2_arg m ρ c main_arg9 (by decide) (by decide)]; exact shapeCast_a_1a_apply _ _ 0 j

/-! ## The two results -/

/-- What the first region leaves in its first output array is the new hidden state. -/
theorem h1p_eq : (dat0 (V1 m ρ) c).arrAt 6 cfg0.N = GruSpec.H1P (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := CellValue.final0_6 (V1 m ρ) c (m ((c : Thread nD τ).loc main_arg4)) (m ((c : Thread nD τ).loc main_arg5)) (V1_v0_apply m ρ c) (V1_v1_apply m ρ c)
  rw [V1_arg0, V1_arg1, V1_arg2, V1_arg3] at h
  exact h
/-- What it leaves in its second output array is the new hidden state plus the input. -/
theorem res_eq : (dat0 (V1 m ρ) c).arrAt 7 cfg0.N = GruSpec.RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := CellValue.final0_7 (V1 m ρ) c (m ((c : Thread nD τ).loc main_arg4)) (m ((c : Thread nD τ).loc main_arg5)) (V1_v0_apply m ρ c) (V1_v1_apply m ρ c)
  rw [V1_arg0, V1_arg1, V1_arg2, V1_arg3] at h
  exact h
/-- What the second region leaves in its output array is the head's output of that. -/
theorem out_eq : (dat1 (V3 m ρ) c).arrAt 5 cfg1.N
    = GruSpec.OUT (GruSpec.RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9)) := by
  rw [final1_5, out1_5_eq, V3_main_v2_1, res_eq, V3_arg6, V3_arg8]
  exact PayValue.head_eq _ _ _ _ _ _ _ (V3_v3_apply m ρ c) (V3_v4_apply m ρ c)

/-- Every execution of the idealized kernel program terminates with its two results at the specification's functions
    of the launch arguments, and the arguments as launched. -/
theorem run : θ_run (defs (F := Ideal)) (onTc (τ := τ) (main (F := Ideal))) ⟨m, fun _ => 0, ρ⟩ (fun r => ∀ c : Dev nD,
      r.2.mem ((c.tc : Thread nD τ).loc main_v5) = GruSpec.OUT (GruSpec.RES (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8)) (m ((c : Thread nD τ).loc main_arg9))
      ∧ r.2.mem ((c.tc : Thread nD τ).loc main_v2_0) = GruSpec.H1P (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun s h c => ⟨(h c _ (mem_uc main_v5 (by decide))).trans ((W4_main_v5 m ρ c).trans (out_eq m ρ c)),
    (h c _ (mem_uc main_v2_0 (by decide))).trans ((W4_main_v2_0 m ρ c).trans (h1p_eq m ρ c)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_main m ρ)

end Cert.KernelIdeal.KValue

end
-- ==== Proof.RefValue.lean ====
/-
  The reference program's two results, entry by entry.

  The program computes the gate pre-activations as two products against the transposed stacked weights plus the
  broadcast biases, cuts each 128 x 3072 pre-activation into its three 128 x 1024 gate slices, spells the logistic
  function as 1 / (1 + exp (-t)) with the float word for one, forms the new hidden state, adds the input, and runs
  the two-layer head (a dense layer clipped below at the word for zero, then a dense layer).  Each stage is read at
  one index (p, q) and identified with the corresponding entry of the specification; the stages are then chained.
  The operand arrays of every stage are variables, so no two full-size arrays are ever compared by unfolding.
-/
import proofs.«128325_j22093311770918_2_alg».proof.Proof.Gen.ReferenceIdeal.Read
import proofs.«128325_j22093311770918_2_alg».proof.Proof.GruSpec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The float word 0x3F800000 denotes the number one. -/
theorem ofBits_one_f32 : Ideal.ofBits .f32 0x3F800000#32 = 1 := by
  simp [Ideal.ofBits, Ideal.ieee, -EReal.coe_mul]; norm_num

/-! ## The gate pre-activations -/

section Pre

variable (a : (⟨S128x1024, .f32⟩ : BufTy).Contents (Elt Ideal)) (w : (⟨S3072x1024, .f32⟩ : BufTy).Contents (Elt Ideal))
  (b : (⟨S3072, .f32⟩ : BufTy).Contents (Elt Ideal))

/-- Entry (p, j) of the input-side pre-activation: row p of the input against row j of the stacked weights, plus
    entry j of the stacked bias. -/
theorem v4_at (p : Fin 128) (j : Fin 3072) :
    val_main_v4 (F := Ideal) a w b (ix2 p j) = GruSpec.dense a w b p j := by
  rw [val_main_v4_apply, val_main_v1_apply, val_main_v3_apply, val_main_v2_apply]
  simp only [val_main_v0_apply]
  unfold GruSpec.dense
  have el : ∀ k : Fin 1024, lidx_main_v1 (ix2 p j) k = ix2 p k := fun k => funext fun d => by
    match d with
    | ⟨0, _⟩ => rfl
    | ⟨1, _⟩ => rfl
  have er : ∀ k : Fin 1024, idx_main_v0 (ridx_main_v1 (ix2 p j) k) = ix2 j k := fun k => funext fun d => by
    match d with
    | ⟨0, _⟩ => rfl
    | ⟨1, _⟩ => rfl
  have eb : idx_main_v2 (idx_main_v3 (ix2 p j)) = ix1 j := funext fun d => by
    match d with
    | ⟨0, _⟩ => rfl
  simp only [el, er, eb]
  rfl

end Pre

section Pre2

variable (a : (⟨S128x1024, .f32⟩ : BufTy).Contents (Elt Ideal)) (w : (⟨S3072x1024, .f32⟩ : BufTy).Contents (Elt Ideal))
  (b : (⟨S3072, .f32⟩ : BufTy).Contents (Elt Ideal))

/-- Entry (p, j) of the state-side pre-activation. -/
theorem v9_at (p : Fin 128) (j : Fin 3072) :
    val_main_v9 (F := Ideal) a w b (ix2 p j) = GruSpec.dense a w b p j := by
  rw [val_main_v9_apply, val_main_v6_apply, val_main_v8_apply, val_main_v7_apply]
  simp only [val_main_v5_apply]
  unfold GruSpec.dense
  have el : ∀ k : Fin 1024, lidx_main_v6 (ix2 p j) k = ix2 p k := fun k => funext fun d => by
    match d with
    | ⟨0, _⟩ => rfl
    | ⟨1, _⟩ => rfl
  have er : ∀ k : Fin 1024, idx_main_v5 (ridx_main_v6 (ix2 p j) k) = ix2 j k := fun k => funext fun d => by
    match d with
    | ⟨0, _⟩ => rfl
    | ⟨1, _⟩ => rfl
  have eb : idx_main_v7 (idx_main_v8 (ix2 p j)) = ix1 j := funext fun d => by
    match d with
    | ⟨0, _⟩ => rfl
  simp only [el, er, eb]
  rfl

end Pre2

/-! ## The three column slices: slice g read at (p, q) is the pre-activation at (p, g * 1024 + q) -/

theorem slice0_idx (p : Fin 128) (q : Fin 1024) : idx_main_v10 (ix2 p q) = ix2 p (GruSpec.gate 0 q) :=
  funext fun d => by
    match d with
    | ⟨0, _⟩ => rfl
    | ⟨1, _⟩ => exact Fin.ext (by simp [GruSpec.gate])

theorem slice1_idx (p : Fin 128) (q : Fin 1024) : idx_main_v11 (ix2 p q) = ix2 p (GruSpec.gate 1 q) :=
  funext fun d => by
    match d with
    | ⟨0, _⟩ => rfl
    | ⟨1, _⟩ => exact Fin.ext (by simp [GruSpec.gate])

theorem slice2_idx (p : Fin 128) (q : Fin 1024) : idx_main_v12 (ix2 p q) = ix2 p (GruSpec.gate 2 q) :=
  funext fun d => by
    match d with
    | ⟨0, _⟩ => rfl
    | ⟨1, _⟩ => exact Fin.ext (by simp [GruSpec.gate])

/-! ## The cell -/

section Cell

variable (x h : (⟨S128x1024, .f32⟩ : BufTy).Contents (Elt Ideal)) (wi wh : (⟨S3072x1024, .f32⟩ : BufTy).Contents (Elt Ideal))
  (bi bh : (⟨S3072, .f32⟩ : BufTy).Contents (Elt Ideal))

/-- The reset gate: 1 / (1 + exp (-t)) with both ones the float word for one is the logistic function of the summed
    pre-activations of gate 0. -/
theorem v22_at (p : Fin 128) (q : Fin 1024) :
    val_main_v22 (F := Ideal) x h wi wh bi bh (ix2 p q) = GruSpec.rgate x h wi wh bi bh p q := by
  rw [val_main_v22_apply, val_main_v21_apply, val_main_cst_0_apply, val_main_v20_apply, val_main_v19_apply,
    val_main_cst_apply, val_main_v18_apply, val_main_v17_apply, val_main_v16_apply, val_main_v10_apply,
    val_main_v13_apply]
  rw [show idx_main_v13 (ix2 p q) = idx_main_v10 (ix2 p q) from rfl, slice0_idx, v4_at, v9_at]
  rw [Ideal.ofBits_def, ofBits_one_f32]
  rfl

/-- The update gate: the same expression on the pre-activations of gate 1. -/
theorem v29_at (p : Fin 128) (q : Fin 1024) :
    val_main_v29 (F := Ideal) x h wi wh bi bh (ix2 p q) = GruSpec.zgate x h wi wh bi bh p q := by
  rw [val_main_v29_apply, val_main_v28_apply, val_main_cst_2_apply, val_main_v27_apply, val_main_v26_apply,
    val_main_cst_1_apply, val_main_v25_apply, val_main_v24_apply, val_main_v23_apply, val_main_v11_apply,
    val_main_v14_apply]
  rw [show idx_main_v14 (ix2 p q) = idx_main_v11 (ix2 p q) from rfl, slice1_idx, v4_at, v9_at]
  rw [Ideal.ofBits_def, ofBits_one_f32]
  rfl

/-- The candidate state: the hyperbolic tangent of the input-side pre-activation of gate 2 plus the reset gate times
    the state-side pre-activation of gate 2. -/
theorem v32_at (p : Fin 128) (q : Fin 1024) :
    val_main_v32 (F := Ideal) x h wi wh bi bh (ix2 p q) = GruSpec.ngate x h wi wh bi bh p q := by
  rw [val_main_v32_apply, val_main_v31_apply, val_main_v30_apply, val_main_v12_apply, val_main_v15_apply, v22_at]
  rw [show idx_main_v15 (ix2 p q) = idx_main_v12 (ix2 p q) from rfl, slice2_idx, v4_at, v9_at]
  rfl

/-- The new hidden state at (p, q). -/
theorem v37_at (p : Fin 128) (q : Fin 1024) :
    val_main_v37 (F := Ideal) x h wi wh bi bh (ix2 p q) = GruSpec.hnew x h wi wh bi bh p q := by
  rw [val_main_v37_apply, val_main_v35_apply, val_main_v36_apply, val_main_v34_apply, val_main_v33_apply,
    val_main_cst_3_apply, v29_at, v32_at]
  rfl

/-- The second result as an array. -/
theorem v37_fun : val_main_v37 (F := Ideal) x h wi wh bi bh = GruSpec.H1P x h wi wh bi bh := by
  funext i
  obtain ⟨p, q, rfl⟩ : ∃ (p : Fin 128) (q : Fin 1024), i = ix2 p q := ⟨i 0, i 1, eq_ix2 i⟩
  rw [v37_at]
  rfl

/-- The array the head reads: the new hidden state plus the input. -/
theorem v38_fun : val_main_v38 (F := Ideal) x h wi wh bi bh = GruSpec.RES x h wi wh bi bh := by
  funext i
  obtain ⟨p, q, rfl⟩ : ∃ (p : Fin 128) (q : Fin 1024), i = ix2 p q := ⟨i 0, i 1, eq_ix2 i⟩
  rw [val_main_v38_apply, v37_at]
  rfl

end Cell

/-! ## The head -/

section Head

variable (x h : (⟨S128x1024, .f32⟩ : BufTy).Contents (Elt Ideal)) (wi wh : (⟨S3072x1024, .f32⟩ : BufTy).Contents (Elt Ideal))
  (bi bh : (⟨S3072, .f32⟩ : BufTy).Contents (Elt Ideal))
  (w1 : (⟨S1024x1024, .f32⟩ : BufTy).Contents (Elt Ideal)) (b1 : (⟨S1024, .f32⟩ : BufTy).Contents (Elt Ideal))
  (w3 : (⟨S256x1024, .f32⟩ : BufTy).Contents (Elt Ideal)) (b3 : (⟨S256, .f32⟩ : BufTy).Contents (Elt Ideal))

/-- Entry (p, j) of the first dense layer, before clipping. -/
theorem v43_at (p : Fin 128) (j : Fin 1024) :
    val_main_v43 (F := Ideal) x h wi wh bi bh w1 b1 (ix2 p j)
      = GruSpec.dense (GruSpec.RES x h wi wh bi bh) w1 b1 p j := by
  rw [val_main_v43_apply, val_main_v40_apply, val_main_v42_apply, val_main_v41_apply, v38_fun]
  simp only [val_main_v39_apply]
  unfold GruSpec.dense
  have el : ∀ k : Fin 1024, lidx_main_v40 (ix2 p j) k = ix2 p k := fun k => funext fun d => by
    match d with
    | ⟨0, _⟩ => rfl
    | ⟨1, _⟩ => rfl
  have er : ∀ k : Fin 1024, idx_main_v39 (ridx_main_v40 (ix2 p j) k) = ix2 j k := fun k => funext fun d => by
    match d with
    | ⟨0, _⟩ => rfl
    | ⟨1, _⟩ => rfl
  have eb : idx_main_v41 (idx_main_v42 (ix2 p j)) = ix1 j := funext fun d => by
    match d with
    | ⟨0, _⟩ => rfl
  simp only [el, er, eb]
  rfl

/-- The clipped hidden layer as an array: the maximum with the broadcast word for zero. -/
theorem v44_fun : val_main_v44 (F := Ideal) x h wi wh bi bh w1 b1
    = GruSpec.HID (GruSpec.RES x h wi wh bi bh) w1 b1 := by
  funext i
  obtain ⟨p, j, rfl⟩ : ∃ (p : Fin 128) (j : Fin 1024), i = ix2 p j := ⟨i 0, i 1, eq_ix2 i⟩
  rw [val_main_v44_apply, val_main_call0_v0_apply, val_main_call0_cst_apply, v43_at]
  rfl

/-- Entry (p, j) of the first result. -/
theorem v49_at (p : Fin 128) (j : Fin 256) :
    val_main_v49 (F := Ideal) x h wi wh bi bh w1 b1 w3 b3 (ix2 p j)
      = GruSpec.dense (GruSpec.HID (GruSpec.RES x h wi wh bi bh) w1 b1) w3 b3 p j := by
  rw [val_main_v49_apply, val_main_v46_apply, val_main_v48_apply, val_main_v47_apply, v44_fun]
  simp only [val_main_v45_apply]
  unfold GruSpec.dense
  have el : ∀ k : Fin 1024, lidx_main_v46 (ix2 p j) k = ix2 p k := fun k => funext fun d => by
    match d with
    | ⟨0, _⟩ => rfl
    | ⟨1, _⟩ => rfl
  have er : ∀ k : Fin 1024, idx_main_v45 (ridx_main_v46 (ix2 p j) k) = ix2 j k := fun k => funext fun d => by
    match d with
    | ⟨0, _⟩ => rfl
    | ⟨1, _⟩ => rfl
  have eb : idx_main_v47 (idx_main_v48 (ix2 p j)) = ix1 j := funext fun d => by
    match d with
    | ⟨0, _⟩ => rfl
  simp only [el, er, eb]
  rfl

/-- The first result as an array. -/
theorem v49_fun : val_main_v49 (F := Ideal) x h wi wh bi bh w1 b1 w3 b3
    = GruSpec.OUT (GruSpec.RES x h wi wh bi bh) w1 b1 w3 b3 := by
  funext i
  obtain ⟨p, j, rfl⟩ : ∃ (p : Fin 128) (j : Fin 256), i = ix2 p j := ⟨i 0, i 1, eq_ix2 i⟩
  rw [v49_at]
  rfl

end Head

/-! ## The two results of a run -/

section Run

variable (m : (ℓ : Loc nD τ sig) → Buf (Elt Ideal) ℓ) (c : Dev nD)

/-- The second result of the reference program is the specification's new hidden state of the arguments. -/
theorem v37_eq :
    Cert.ReferenceIdeal.Value.res_main_v37 m c
      = GruSpec.H1P (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (val_main_v37_eq m c).trans (v37_fun _ _ _ _ _ _)

/-- The first result of the reference program is the specification's head output, read from the new hidden state
    plus the input. -/
theorem v49_eq :
    Cert.ReferenceIdeal.Value.res_main_v49 m c
      = GruSpec.OUT (GruSpec.RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9)) :=
  (val_main_v49_eq m c).trans (v49_fun _ _ _ _ _ _ _ _ _ _)

end Run

/-- Every weakly fair execution of the reference program ends with its two results at the specification's values of
    the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49)
          = GruSpec.OUT (GruSpec.RES (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v37)
          = GruSpec.H1P (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ hr c =>
      ⟨(hr c).1.trans (v49_eq m c), (hr c).2.1.trans (v37_eq m c), (hr c).2.2⟩)
    (Cert.ReferenceIdeal.Value.run m ρ)

end Cert.ReferenceIdeal.RefValue

end
-- ==== Proof.lean ====
/-
  One step of a gated recurrent cell with a residual connection and a two-layer head, computed by two kernels, against
  the plain array program.

  The kernel program runs a first kernel over a 2 × 3 grid — the outer coordinate a half of the 1024 hidden positions, the
  inner one a gate —, which keeps the reset and update gates of its half in two scratch buffers from one grid point to
  the next and, at the third point of each half, forms the new hidden state h' = (1 - z) * n + z * h of that half and
  h' + x, and then a second kernel, one grid point, that computes max(s * w1^T + b1, 0) * w3^T + b3 of s = h' + x.  Every
  matrix product contracts the last axis of both operands; on the extended reals the matrix unit's product into a zero
  accumulator and the array program's general dot product of a transposed operand are the same finite sum, rounding to
  a shorter float format is the identity, and the kernel's logistic is the array program's 1 / (1 + exp (-t)).  So both
  programs compute, entry by entry and operation by operation in the same order, the functions `GruSpec.H1P` and
  `GruSpec.OUT (GruSpec.RES …)` of their arguments: no law of arithmetic is needed and the inputs' finiteness is never
  used.

  The frames.  Each kernel program's run is followed through @main's four items (two reshapes, the first kernel, two
  reshapes, the second kernel): the first kernel's body is run in each of its three cases, the two scratch buffers
  carried through the grid by an invariant that says what they hold before each point; the contents of every unscoped
  buffer at the end are named, the arguments among them unchanged.  This is done once for any float instance and used
  at the word-level instance and at the exact one.  The reference program's frame is its run with the results dropped.
-/
import proofs.«128325_j22093311770918_2_alg».proof.Defs
import proofs.«128325_j22093311770918_2_alg».proof.Proof.Gen.Kernel
import proofs.«128325_j22093311770918_2_alg».proof.Proof.Gen.KernelIdeal
import proofs.«128325_j22093311770918_2_alg».proof.Proof.Gen.ReferenceIdeal
import proofs.«128325_j22093311770918_2_alg».proof.Proof.Gen.Pre_finite_inputs
import proofs.«128325_j22093311770918_2_alg».proof.Proof.KRunMain
import proofs.«128325_j22093311770918_2_alg».proof.Proof.KernelValue
import proofs.«128325_j22093311770918_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference program's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefValue.run m ρ)

/-- From memories that agree on the ten arguments both idealized programs end with the head's output and the new hidden
    state of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => GruSpec.OUT (GruSpec.RES (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => GruSpec.H1P (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.KernelIdeal.KValue.run m ρ, ?_⟩
  refine (θ_run Cert.ReferenceIdeal.defs _ _).mono (fun _ h c => ?_) (Cert.ReferenceIdeal.RefValue.run m' ρ')
  obtain ⟨h49, h37, hargs⟩ := h c
  obtain ⟨e0, e1, e2, e3, e4, e5, e6, e7, e8, e9⟩ := hagree c
  refine ⟨h49.trans ?_, h37.trans ?_, hargs⟩
  · rw [e0, e1, e2, e3, e4, e5, e6, e7, e8, e9]
  · rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
